-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x8 : Shape := ⟨2, ![1, 8]⟩
abbrev S8 : Shape := ⟨1, ![8]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S1x8 : S_.BroadcastsInDim S1x8 (![] : Fin 0 → Fin S1x8.rank)
  reducesTo_S1x8_S_d0_1 : S1x8.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg8 : FVec F S1x8 .f32) (main_arg9 : FVec F S8 .f32) (main_v33 : IVec S_ 1) : IVec S_ 1 :=
  let main_v34 : FVec F S1x8 .f32 := Host.absf main_arg8
  let main_cst_12 : FVec F S_ .f32 := constant S_ .f32 0x7F800000#32
  let main_v35 : FVec F S1x8 .f32 := broadcastInDim S1x8 ![] bcast_S_S1x8 main_cst_12
  let main_v36 : IVec S1x8 1 := cmpf .olt main_v34 main_v35
  let main_c_13 : IVec S_ 1 := constantI S_ 1 1#1
  let main_v37 : IVec S_ 1 := (fun x v => Host.reduce IntOp.andi x v reducesTo_S1x8_S_d0_1 h_S_) main_v36 main_c_13
  let main_v38 : IVec S_ 1 := andi main_v33 main_v37
  let main_v39 : FVec F S8 .f32 := Host.absf main_arg9
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  main_v43

def fn_part1 {F : FTy → Type} [FloatOps F] (main_arg5 : FVec F S32 .f32) (main_arg6 : FVec F S32x1 .f32) (main_arg7 : FVec F S1 .f32) (main_arg8 : FVec F S1x8 .f32) (main_arg9 : FVec F S8 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x64 .f32) (main_arg3 : FVec F S64 .f32) (main_arg4 : FVec F S64x32 .f32) (main_arg5 : FVec F S32 .f32) (main_arg6 : FVec F S32x1 .f32) (main_arg7 : FVec F S1 .f32) (main_arg8 : FVec F S1x8 .f32) (main_arg9 : FVec F S8 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x8 : Shape := ⟨2, ![1, 8]⟩
abbrev S8 : Shape := ⟨1, ![8]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S10000x128 : Shape := ⟨2, ![10000, 128]⟩
abbrev S10000x64 : Shape := ⟨2, ![10000, 64]⟩
abbrev S850000x64 : Shape := ⟨2, ![850000, 64]⟩
abbrev S1x64 : Shape := ⟨2, ![1, 64]⟩
abbrev S50000x32 : Shape := ⟨2, ![50000, 32]⟩
abbrev S10000x32 : Shape := ⟨2, ![10000, 32]⟩
abbrev S850000x32 : Shape := ⟨2, ![850000, 32]⟩
abbrev S1x32 : Shape := ⟨2, ![1, 32]⟩
abbrev S50000x1 : Shape := ⟨2, ![50000, 1]⟩
abbrev S10000x1 : Shape := ⟨2, ![10000, 1]⟩
abbrev S1x1 : Shape := ⟨2, ![1, 1]⟩
abbrev S50000x8 : Shape := ⟨2, ![50000, 8]⟩
abbrev S10000x8 : Shape := ⟨2, ![10000, 8]⟩

abbrev nBuf : Space → Nat
  | .hbm => 105
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S1x8, .f32⟩
  | .hbm, ⟨9, _⟩ => ⟨S8, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S50000x64, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x64, .f32⟩
  | .hbm, ⟨60, _⟩ => ⟨S850000x1, .f32⟩
  | .hbm, ⟨61, _⟩ => ⟨S850000x64, .f32⟩
  | .hbm, ⟨62, _⟩ => ⟨S850000x64, .f32⟩
  | .hbm, ⟨63, _⟩ => ⟨S_, .f32⟩
  | .hbm, ⟨64, _⟩ => ⟨S50000x64, .f32⟩
  | .hbm, ⟨65, _⟩ => ⟨S850000x1, .i32⟩
  | .hbm, ⟨66, _⟩ => ⟨S50000x64, .f32⟩
  | .hbm, ⟨67, _⟩ => ⟨S1x64, .f32⟩
  | .hbm, ⟨68, _⟩ => ⟨S50000x32, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x32, .f32⟩
  | .hbm, ⟨78, _⟩ => ⟨S850000x1, .f32⟩
  | .hbm, ⟨79, _⟩ => ⟨S850000x32, .f32⟩
  | .hbm, ⟨80, _⟩ => ⟨S850000x32, .f32⟩
  | .hbm, ⟨81, _⟩ => ⟨S_, .f32⟩
  | .hbm, ⟨82, _⟩ => ⟨S50000x32, .f32⟩
  | .hbm, ⟨83, _⟩ => ⟨S850000x1, .i32⟩
  | .hbm, ⟨84, _⟩ => ⟨S50000x32, .f32⟩
  | .hbm, ⟨85, _⟩ => ⟨S1x32, .f32⟩
  | .hbm, ⟨86, _⟩ => ⟨S50000x1, .f32⟩
  | .hbm, ⟨87, _⟩ => ⟨S_, .i32⟩
  | .hbm, ⟨88, _⟩ => ⟨S850000, .i32⟩
  | .hbm, ⟨89, _⟩ => ⟨S850000, .i1⟩
  | .hbm, ⟨90, _⟩ => ⟨S_, .i32⟩
  | .hbm, ⟨91, _⟩ => ⟨S850000, .i32⟩
  | .hbm, ⟨92, _⟩ => ⟨S850000, .i32⟩
  | .hbm, ⟨93, _⟩ => ⟨S850000, .i32⟩
  | .hbm, ⟨94, _⟩ => ⟨S850000x1, .i32⟩
  | .hbm, ⟨95, _⟩ => ⟨S850000x1, .f32⟩
  | .hbm, ⟨96, _⟩ => ⟨S850000x1, .f32⟩
  | .hbm, ⟨97, _⟩ => ⟨S850000x1, .f32⟩
  | .hbm, ⟨98, _⟩ => ⟨S_, .f32⟩
  | .hbm, ⟨99, _⟩ => ⟨S50000x1, .f32⟩
  | .hbm, ⟨100, _⟩ => ⟨S850000x1, .i32⟩
  | .hbm, ⟨101, _⟩ => ⟨S50000x1, .f32⟩
  | .hbm, ⟨102, _⟩ => ⟨S1x1, .f32⟩
  | .hbm, ⟨103, _⟩ => ⟨S1x8, .f32⟩
  | .hbm, ⟨104, _⟩ => ⟨S50000x8, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S10000x32, .f32⟩
  | .local _ .vmem, ⟨13, _⟩ => ⟨S1x32, .f32⟩
  | .local _ .vmem, ⟨14, _⟩ => ⟨S32x1, .f32⟩
  | .local _ .vmem, ⟨15, _⟩ => ⟨S10000x1, .f32⟩
  | .local _ .vmem, ⟨16, _⟩ => ⟨S10000x1, .f32⟩
  | .local _ .vmem, ⟨17, _⟩ => ⟨S10000x1, .f32⟩
  | .local _ .vmem, ⟨18, _⟩ => ⟨S10000x1, .f32⟩
  | .local _ .vmem, ⟨19, _⟩ => ⟨S1x1, .f32⟩
  | .local _ .vmem, ⟨20, _⟩ => ⟨S1x8, .f32⟩
  | .local _ .vmem, ⟨21, _⟩ => ⟨S1x8, .f32⟩
  | .local _ .vmem, ⟨22, _⟩ => ⟨S10000x8, .f32⟩
  | .local _ .vmem, ⟨23, _⟩ => ⟨S10000x8, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_v46 : Ref sig .tc := ⟨.hbm, 70, rfl⟩
abbrev main_v47 : Ref sig .tc := ⟨.hbm, 71, rfl⟩
abbrev main_c_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_12 : Ref sig .tc := ⟨.hbm, 87, rfl⟩
abbrev main_v61 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_14 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x8 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x8 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x8 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x1_S32x1_0_0 : ∀ a, (![0, 0] : Fin 2 → Nat) a + S32x1.size a ≤ S32x1.size a
  h_S32x1 : 0 < S32x1.numel
  inb_S10000x1_S10000x1_0_0 : ∀ a, (![0, 0] : Fin 2 → Nat) a + S10000x1.size a ≤ S10000x1.size a
  h_S10000x1 : 0 < S10000x1.numel
  bcast_S_S50000x1 : S_.BroadcastsInDim S50000x1 (![] : Fin 0 → Fin S50000x1.rank)
  shapeCasts_S1_S1x1 : S1.ShapeCasts S1x1
  shapeCasts_S8_S1x8 : S8.ShapeCasts S1x8
  shapeCasts_S10000x1_S10000x1 : S10000x1.ShapeCasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S10000x8 : S1x8.Broadcasts S10000x8
  inb_S10000x8_S10000x8_0_0 : ∀ a, (![0, 0] : Fin 2 → Nat) a + S10000x8.size a ≤ S10000x8.size a
  h_S10000x8 : 0 < S10000x8.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x128_S128x64_S10000x64_1_0_0_1_n_n_wf : DotDims.WF S10000x128 S128x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S10000x64_S64x32_S10000x32_1_0_0_1_n_n_wf : DotDims.WF S10000x64 S64x32 S10000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  dot_S10000x32_S32x1_S10000x1_1_0_0_1_n_n_wf : DotDims.WF S10000x32 S32x1 S10000x1 [1] [0] [0] [1] [] []
  gather_S50000x1_S850000x1_S850000x1_1_0_n_n_0_1_11_wf : GatherDims.WF S50000x1 S850000x1 S850000x1 [1] [0] [] [0] [] 1 ![1, 1]
  scatter_S50000x1_S850000x1_S850000x1_1_0_0_1_wf : ScatterDims.WF S50000x1 S850000x1 S850000x1 [1] [0] [0] 1
  dot_S10000x1_S1x8_S10000x8_1_0_0_1_n_n_wf : DotDims.WF S10000x1 S1x8 S10000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .f32 = 32 ∨ (Rect.block (s := S50000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x32.size a ≤ S50000x32.size a
  hwx1_3 : ∀ i : grid1.Coords, EltTy.bits .f32 = 32 ∨ (Rect.block (s := S50000x32) S10000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S50000x32.size a
  hwx2_0 : ∀ i : grid2.Coords, EltTy.bits .f32 = 32 ∨ (Rect.block (s := S50000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x1.size a ≤ S32x1.size a
  hwx2_2 : ∀ i : grid2.Coords, EltTy.bits .f32 = 32 ∨ (Rect.block (s := S32x1) S32x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x1.size a ≤ S50000x1.size a
  hwx2_3 : ∀ i : grid2.Coords, EltTy.bits .f32 = 32 ∨ (Rect.block (s := S50000x1) S10000x1.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x1.size a ≤ S50000x1.size a
  hwx3_0 : ∀ i : grid3.Coords, EltTy.bits .f32 = 32 ∨ (Rect.block (s := S50000x1) S10000x1.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x1.size a ≤ S1x1.size a
  hwx3_1 : ∀ i : grid3.Coords, EltTy.bits .f32 = 32 ∨ (Rect.block (s := S1x1) S1x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x8.size a ≤ S1x8.size a
  hwx3_2 : ∀ i : grid3.Coords, EltTy.bits .f32 = 32 ∨ (Rect.block (s := S1x8) S1x8.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x8.size a ≤ S1x8.size a
  hwx3_3 : ∀ i : grid3.Coords, EltTy.bits .f32 = 32 ∨ (Rect.block (s := S1x8) S1x8.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x8.size a ≤ S50000x8.size a
  hwx3_4 : ∀ i : grid3.Coords, EltTy.bits .f32 = 32 ∨ (Rect.block (s := S50000x8) S10000x8.size (cc3_transform_4 i) (hinb3_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf
def gather_S50000x1_S850000x1_S850000x1_1_0_n_n_0_1_11 : GatherDims S50000x1 S850000x1 S850000x1 where
  offsetDims := [1]
  collapsedSliceDims := [0]
  operandBatchingDims := []
  startIndicesBatchingDims := []
  startIndexMap := [0]
  indexVectorDim := 1
  sliceSizes := ![1, 1]
  wf := gather_S50000x1_S850000x1_S850000x1_1_0_n_n_0_1_11_wf
def scatter_S50000x1_S850000x1_S850000x1_1_0_0_1 : ScatterDims S50000x1 S850000x1 S850000x1 where
  updateWindowDims := [1]
  insertedWindowDims := [0]
  scatterDimsToOperandDims := [0]
  indexVectorDim := 1
  wf := scatter_S50000x1_S850000x1_S850000x1_1_0_0_1_wf
def dot_S10000x1_S1x8_S10000x8_1_0_0_1_n_n : DotDims S10000x1 S1x8 S10000x8 where
  lhsContracting := [1]
  rhsContracting := [0]
  lhsNonContracting := [0]
  rhsNonContracting := [1]
  lhsBatch := []
  rhsBatch := []
  wf := dot_S10000x1_S1x8_S10000x8_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S32x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S10000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v72) S10000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v73) S1x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S1x8.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v74) S1x8.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v75) S10000x8.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x8 : Shape := ⟨2, ![1, 8]⟩
abbrev S8 : Shape := ⟨1, ![8]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S50000x32 : Shape := ⟨2, ![50000, 32]⟩
abbrev S850000x32 : Shape := ⟨2, ![850000, 32]⟩
abbrev S1x32 : Shape := ⟨2, ![1, 32]⟩
abbrev S50000x1 : Shape := ⟨2, ![50000, 1]⟩
abbrev S1x1 : Shape := ⟨2, ![1, 1]⟩
abbrev S50000x8 : Shape := ⟨2, ![50000, 8]⟩

abbrev nBuf : Space → Nat
  | .hbm => 121
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S1x8, .f32⟩
  | .hbm, ⟨9, _⟩ => ⟨S8, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S50000x64, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x64, .f32⟩
  | .hbm, ⟨60, _⟩ => ⟨S850000x1, .f32⟩
  | .hbm, ⟨61, _⟩ => ⟨S850000x64, .f32⟩
  | .hbm, ⟨62, _⟩ => ⟨S850000x64, .f32⟩
  | .hbm, ⟨63, _⟩ => ⟨S_, .f32⟩
  | .hbm, ⟨64, _⟩ => ⟨S50000x64, .f32⟩
  | .hbm, ⟨65, _⟩ => ⟨S850000x1, .i32⟩
  | .hbm, ⟨66, _⟩ => ⟨S50000x64, .f32⟩
  | .hbm, ⟨67, _⟩ => ⟨S1x64, .f32⟩
  | .hbm, ⟨68, _⟩ => ⟨S50000x64, .f32⟩
  | .hbm, ⟨69, _⟩ => ⟨S50000x64, .f32⟩
  | .hbm, ⟨70, _⟩ => ⟨S_, .f32⟩
  | .hbm, ⟨71, _⟩ => ⟨S50000x64, .f32⟩
  | .hbm, ⟨72, _⟩ => ⟨S50000x64, .f32⟩
  | .hbm, ⟨73, _⟩ => ⟨S50000x32, .f32⟩
  | .hbm, ⟨74, _⟩ => ⟨S_, .i32⟩
  | .hbm, ⟨75, _⟩ => ⟨S850000, .i32⟩
  | .hbm, ⟨76, _⟩ => ⟨S850000, .i1⟩
  | .hbm, ⟨77, _⟩ => ⟨S_, .i32⟩
  | .hbm, ⟨78, _⟩ => ⟨S850000, .i32⟩
  | .hbm, ⟨79, _⟩ => ⟨S850000, .i32⟩
  | .hbm, ⟨80, _⟩ => ⟨S850000, .i32⟩
  | .hbm, ⟨81, _⟩ => ⟨S850000x1, .i32⟩
  | .hbm, ⟨82, _⟩ => ⟨S850000x32, .f32⟩
  | .hbm, ⟨83, _⟩ => ⟨S850000x1, .f32⟩
  | .hbm, ⟨84, _⟩ => ⟨S850000x32, .f32⟩
  | .hbm, ⟨85, _⟩ => ⟨S850000x32, .f32⟩
  | .hbm, ⟨86, _⟩ => ⟨S_, .f32⟩
  | .hbm, ⟨87, _⟩ => ⟨S50000x32, .f32⟩
  | .hbm, ⟨88, _⟩ => ⟨S850000x1, .i32⟩
  | .hbm, ⟨89, _⟩ => ⟨S50000x32, .f32⟩
  | .hbm, ⟨90, _⟩ => ⟨S1x32, .f32⟩
  | .hbm, ⟨91, _⟩ => ⟨S50000x32, .f32⟩
  | .hbm, ⟨92, _⟩ => ⟨S50000x32, .f32⟩
  | .hbm, ⟨93, _⟩ => ⟨S_, .f32⟩
  | .hbm, ⟨94, _⟩ => ⟨S50000x32, .f32⟩
  | .hbm, ⟨95, _⟩ => ⟨S50000x32, .f32⟩
  | .hbm, ⟨96, _⟩ => ⟨S50000x1, .f32⟩
  | .hbm, ⟨97, _⟩ => ⟨S_, .i32⟩
  | .hbm, ⟨98, _⟩ => ⟨S850000, .i32⟩
  | .hbm, ⟨99, _⟩ => ⟨S850000, .i1⟩
  | .hbm, ⟨100, _⟩ => ⟨S_, .i32⟩
  | .hbm, ⟨101, _⟩ => ⟨S850000, .i32⟩
  | .hbm, ⟨102, _⟩ => ⟨S850000, .i32⟩
  | .hbm, ⟨103, _⟩ => ⟨S850000, .i32⟩
  | .hbm, ⟨104, _⟩ => ⟨S850000x1, .i32⟩
  | .hbm, ⟨105, _⟩ => ⟨S850000x1, .f32⟩
  | .hbm, ⟨106, _⟩ => ⟨S850000x1, .f32⟩
  | .hbm, ⟨107, _⟩ => ⟨S850000x1, .f32⟩
  | .hbm, ⟨108, _⟩ => ⟨S_, .f32⟩
  | .hbm, ⟨109, _⟩ => ⟨S50000x1, .f32⟩
  | .hbm, ⟨110, _⟩ => ⟨S850000x1, .i32⟩
  | .hbm, ⟨111, _⟩ => ⟨S50000x1, .f32⟩
  | .hbm, ⟨112, _⟩ => ⟨S1x1, .f32⟩
  | .hbm, ⟨113, _⟩ => ⟨S50000x1, .f32⟩
  | .hbm, ⟨114, _⟩ => ⟨S50000x1, .f32⟩
  | .hbm, ⟨115, _⟩ => ⟨S50000, .f32⟩
  | .hbm, ⟨116, _⟩ => ⟨S50000x1, .f32⟩
  | .hbm, ⟨117, _⟩ => ⟨S50000x8, .f32⟩
  | .hbm, ⟨118, _⟩ => ⟨S1x8, .f32⟩
  | .hbm, ⟨119, _⟩ => ⟨S50000x8, .f32⟩
  | .hbm, ⟨120, _⟩ => ⟨S50000x8, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_14 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  bcast_S50000_S50000x1_0 : S50000.BroadcastsInDim S50000x1 (![0] : Fin 1 → Fin S50000x1.rank)
  bcast_S8_S1x8_1 : S8.BroadcastsInDim S1x8 (![1] : Fin 1 → Fin S1x8.rank)
  bcast_S1x8_S50000x8_0_1 : S1x8.BroadcastsInDim S50000x8 (![0, 1] : Fin 2 → Fin S50000x8.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x32_S50000x32_1_0_0_1_n_n_wf : DotDims.WF S50000x64 S64x32 S50000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  dot_S50000x32_S32x1_S50000x1_1_0_0_1_n_n_wf : DotDims.WF S50000x32 S32x1 S50000x1 [1] [0] [0] [1] [] []
  gather_S50000x1_S850000x1_S850000x1_1_0_n_n_0_1_11_wf : GatherDims.WF S50000x1 S850000x1 S850000x1 [1] [0] [] [0] [] 1 ![1, 1]
  scatter_S50000x1_S850000x1_S850000x1_1_0_0_1_wf : ScatterDims.WF S50000x1 S850000x1 S850000x1 [1] [0] [0] 1
  dot_S50000x1_S1x8_S50000x8_1_0_0_1_n_n_wf : DotDims.WF S50000x1 S1x8 S50000x8 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def dot_S50000x32_S32x1_S50000x1_1_0_0_1_n_n : DotDims S50000x32 S32x1 S50000x1 where
  lhsContracting := [1]
  rhsContracting := [0]
  lhsNonContracting := [0]
  rhsNonContracting := [1]
  lhsBatch := []
  rhsBatch := []
  wf := dot_S50000x32_S32x1_S50000x1_1_0_0_1_n_n_wf
def gather_S50000x1_S850000x1_S850000x1_1_0_n_n_0_1_11 : GatherDims S50000x1 S850000x1 S850000x1 where
  offsetDims := [1]
  collapsedSliceDims := [0]
  operandBatchingDims := []
  startIndicesBatchingDims := []
  startIndexMap := [0]
  indexVectorDim := 1
  sliceSizes := ![1, 1]
  wf := gather_S50000x1_S850000x1_S850000x1_1_0_n_n_0_1_11_wf
def scatter_S50000x1_S850000x1_S850000x1_1_0_0_1 : ScatterDims S50000x1 S850000x1 S850000x1 where
  updateWindowDims := [1]
  insertedWindowDims := [0]
  scatterDimsToOperandDims := [0]
  indexVectorDim := 1
  wf := scatter_S50000x1_S850000x1_S850000x1_1_0_0_1_wf
def dot_S50000x1_S1x8_S50000x8_1_0_0_1_n_n : DotDims S50000x1 S1x8 S50000x8 where
  lhsContracting := [1]
  rhsContracting := [0]
  lhsNonContracting := [0]
  rhsNonContracting := [1]
  lhsBatch := []
  rhsBatch := []
  wf := dot_S50000x1_S1x8_S50000x8_1_0_0_1_n_n_wf

class Facts : Prop extends Facts₀ where

variable [Facts]
-- ==== Proof.KernelRun.lean ====
/-
  The idealized kernel's run with its result named.

  The program is four kernel launches among stretches of host operations.  Its generated frame follows the buffer
  contents from the launch memory through every stretch and every launch; at the return every buffer the run never
  frees holds the last of these contents.  Here the same run is read for more than the arguments: the result buffer
  ends at the last contents at the result's reference, and the argument arrays end as launched.
-/
import proofs.«140946_j79834852098287_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the contents
    the last launch leaves at the result's reference, and every argument array is as launched. -/
theorem run : θ_run defs (onTc (τ := τ) (main (F := F))) ⟨m, fun _ => 0, ρ⟩ (fun r => ∀ c : Dev nD,
      r.2.mem ((c.tc : Thread nD τ).loc main_v75) = W10 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v75 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)

end Cert.KernelIdeal.Result

end
-- ==== Proof.LibMatRows.lean ====
/-
  A plain matrix product read at one entry.

  For operands of shapes [M, K] and [K, N] contracted over the left's columns and the right's rows, entry (p, c)
  of the product is the sum over k of left (p, k) times right (k, c).  At the ideal instance this holds both for a
  kernel's product accumulated into a zero array and for a host product, whatever precision or schedule is named:
  neither rounding nor summation order is left.  Everything is generic in the extents M, K, N.
-/
import Idealize.ShloMosaic.PureOps.Ideal
import Idealize.ShloMosaic.PureOps.Ideal.Laws
import Idealize.ShloMosaic.Lib.ValueIdx

noncomputable section

open scoped BigOperators

namespace Idealize.ShloMosaic.MatRows

open Idealize.ShloMosaic Idealize.ShloMosaic.ValueIdx

variable {M K N : Nat}

/-- The contraction index set of a plain product is its one coordinate, ranging over the shared extent. -/
abbrev contrFin (M K N : Nat) : (DotDims.plain M K N).contr.Idx ≃ Fin K :=
  contrEquiv1 (DotDims.plain M K N) K rfl rfl

/-- At result entry (p, c) and contraction position k the left operand is read at (p, k). -/
theorem plain_lhsIdx (p : Fin M) (c : Fin N) (k : Fin K) :
    (DotDims.plain M K N).lhsIdx (ix2 p c) ((contrFin M K N).symm k) = ix2 p k := by
  funext a
  refine Fin.ext ?_
  match a with
  | ⟨0, _⟩ => rfl
  | ⟨1, _⟩ =>
    exact ((DotDims.plain M K N).lhsIdx_val_of_single (cl := (1 : Fin 2)) rfl (ix2 p c) _).trans
      (contrEquiv1_symm_val (DotDims.plain M K N) K rfl rfl k)

/-- At result entry (p, c) and contraction position k the right operand is read at (k, c). -/
theorem plain_rhsIdx (p : Fin M) (c : Fin N) (k : Fin K) :
    (DotDims.plain M K N).rhsIdx (ix2 p c) ((contrFin M K N).symm k) = ix2 k c := by
  funext a
  refine Fin.ext ?_
  match a with
  | ⟨0, _⟩ =>
    exact ((DotDims.plain M K N).rhsIdx_val_of_single (cr := (0 : Fin 2)) rfl (ix2 p c) _).trans
      (contrEquiv1_symm_val (DotDims.plain M K N) K rfl rfl k)
  | ⟨1, _⟩ => rfl

/-- The contraction sum of a plain product, re-indexed by the shared extent. -/
theorem plain_sum (l : (⟨2, ![M, K]⟩ : Shape).Idx → EReal) (r : (⟨2, ![K, N]⟩ : Shape).Idx → EReal) (p : Fin M) (c : Fin N) :
    ∑ k : (DotDims.plain M K N).contr.Idx,
        l ((DotDims.plain M K N).lhsIdx (ix2 p c) k) * r ((DotDims.plain M K N).rhsIdx (ix2 p c) k)
      = ∑ k : Fin K, l (ix2 p k) * r (ix2 k c) := by
  rw [← Equiv.sum_comp (contrFin M K N).symm]
  exact Finset.sum_congr rfl fun k _ => by rw [plain_lhsIdx, plain_rhsIdx]

/-- A kernel's product into the zero array, at entry (p, c). -/
theorem matmul_plain_apply {φ₁ φ₂ : FTy} (prec : Option ContractPrecision)
    (l : FVec Ideal ⟨2, ![M, K]⟩ φ₁) (r : FVec Ideal ⟨2, ![K, N]⟩ φ₂) (p : Fin M) (c : Fin N) :
    matmul (DotDims.plain M K N) prec l r (constant (F := Ideal) ⟨2, ![M, N]⟩ .f32 0x00000000#32) (ix2 p c)
      = ∑ k : Fin K, l (ix2 p k) * r (ix2 k c) :=
  (Ideal.matmul_constant_zero_apply (DotDims.plain M K N) prec l r (ix2 p c)).trans (plain_sum l r p c)

/-- A host product, at entry (p, c). -/
theorem dotGeneral_plain_apply {φ₁ φ₂ : FTy} (prec : Option ContractPrecision)
    (l : FVec Ideal ⟨2, ![M, K]⟩ φ₁) (r : FVec Ideal ⟨2, ![K, N]⟩ φ₂) (p : Fin M) (c : Fin N) :
    (Host.dotGeneral (F := Ideal) (DotDims.plain M K N) prec l r : FVec Ideal ⟨2, ![M, N]⟩ .f32) (ix2 p c)
      = ∑ k : Fin K, l (ix2 p k) * r (ix2 k c) :=
  (Ideal.dotGeneral_apply (DotDims.plain M K N) prec _ l r (ix2 p c)).trans (plain_sum l r p c)

end Idealize.ShloMosaic.MatRows

end
-- ==== Proof.LibDenseRows.lean ====
/-
  A dense layer on rows, read at one entry.

  Every launch of the network computes, for a block of rows, a matrix product whose left operand is first shifted by a
  bias row (and, in the hidden layers, clamped from below).  Row p of the result depends on row p of the left operand
  only, so the same entry-by-entry formula describes a block of rows and the whole array.  The formulas are stated once,
  over arbitrary extents, and shown to be what the kernel's spelling (a product accumulated into a zero array, operands
  passed through a change of float format, the bias a one-row matrix broadcast down the rows) and the host's spelling
  (a general product, the bias a vector broadcast first to a row and then down the rows) compute at the ideal instance.
-/
import proofs.«140946_j79834852098287_1_alg».proof.Proof.LibMatRows
import Idealize.ShloMosaic.Lib.ValueLayout
import Idealize.ShloMosaic.Lib.Pipeline.Value

noncomputable section

open scoped BigOperators

namespace Idealize.ShloMosaic.DenseRows

open Idealize.ShloMosaic Idealize.ShloMosaic.ValueIdx Idealize.ShloMosaic.MatRows

variable {M K N : Nat}

/-- Entry (p, c) of the product of A by W. -/
def mulAt (A : (⟨2, ![M, K]⟩ : Shape).Idx → EReal) (W : (⟨2, ![K, N]⟩ : Shape).Idx → EReal) (p : Fin M) (c : Fin N) : EReal :=
  ∑ k : Fin K, A (ix2 p k) * W (ix2 k c)

/-- Entry (p, c) of the product by W of A shifted by the row b and clamped from below at z. -/
def shiftClampMulAt (z : EReal) (A : (⟨2, ![M, K]⟩ : Shape).Idx → EReal) (b : (⟨2, ![1, K]⟩ : Shape).Idx → EReal)
    (W : (⟨2, ![K, N]⟩ : Shape).Idx → EReal) (p : Fin M) (c : Fin N) : EReal :=
  ∑ k : Fin K, max (A (ix2 p k) + b (ix2 (0 : Fin 1) k)) z * W (ix2 k c)

/-- Entry (p, c) of the product by W of A shifted by the row b, the row d added to the product. -/
def shiftMulShiftAt (A : (⟨2, ![M, K]⟩ : Shape).Idx → EReal) (b : (⟨2, ![1, K]⟩ : Shape).Idx → EReal)
    (W : (⟨2, ![K, N]⟩ : Shape).Idx → EReal) (d : (⟨2, ![1, N]⟩ : Shape).Idx → EReal) (p : Fin M) (c : Fin N) : EReal :=
  (∑ k : Fin K, (A (ix2 p k) + b (ix2 (0 : Fin 1) k)) * W (ix2 k c)) + d (ix2 (0 : Fin 1) c)

/-! ## The kernel's spelling -/

/-- A product into the zero array of operands passed through a change of float format. -/
theorem kernel_mulAt (ht1 ht2 : FTy.bf16.bits < FTy.f32.bits)
    (x0 : FVec Ideal ⟨2, ![M, K]⟩ .f32) (x1 : FVec Ideal ⟨2, ![K, N]⟩ .f32) (p : Fin M) (c : Fin N) :
    matmul (DotDims.plain M K N) none (truncf .bf16 x0 ht1) (truncf .bf16 x1 ht2)
        (constant (F := Ideal) ⟨2, ![M, N]⟩ .f32 0x00000000#32) (ix2 p c)
      = mulAt x0 x1 p c :=
  matmul_plain_apply none _ _ p c

/-- The hidden layers' body: shift by the bias row, clamp, change format, multiply. -/
theorem kernel_shiftClampMulAt (ht1 ht2 : FTy.bf16.bits < FTy.f32.bits) (z : BitVec 32)
    (h0 : (⟨2, ![M, K]⟩ : Shape).ShapeCasts ⟨2, ![M, K]⟩) (h1 : (⟨2, ![1, K]⟩ : Shape).ShapeCasts ⟨2, ![1, K]⟩)
    (hb : (⟨2, ![1, K]⟩ : Shape).Broadcasts ⟨2, ![M, K]⟩)
    (x0 : FVec Ideal ⟨2, ![M, K]⟩ .f32) (x1 : FVec Ideal ⟨2, ![1, K]⟩ .f32) (x2 : FVec Ideal ⟨2, ![K, N]⟩ .f32)
    (p : Fin M) (c : Fin N) :
    matmul (DotDims.plain M K N) none
        (truncf .bf16 (maximumf (addf (shapeCast ⟨2, ![M, K]⟩ x0 h0) (broadcastTo ⟨2, ![M, K]⟩ (shapeCast ⟨2, ![1, K]⟩ x1 h1) hb))
          (broadcast ⟨2, ![M, K]⟩ (Scalar.ofBits (F := Ideal) .f32 z))) ht1)
        (truncf .bf16 x2 ht2) (constant (F := Ideal) ⟨2, ![M, N]⟩ .f32 0x00000000#32) (ix2 p c)
      = shiftClampMulAt (Scalar.ofBits (F := Ideal) .f32 z) x0 x1 x2 p c := by
  refine (matmul_plain_apply none _ _ p c).trans (Finset.sum_congr rfl fun k _ => ?_)
  rw [shapeCast_self, shapeCast_self]
  show max (x0 (ix2 p k) + broadcastTo ⟨2, ![M, K]⟩ x1 hb (ix2 p k)) _ * x2 (ix2 k c) = _
  rw [broadcastTo_1b_ab_apply]
  rfl

/-- The last layer's body: shift by the bias row, change format, multiply, add the output bias row. -/
theorem kernel_shiftMulShiftAt (ht1 ht2 : FTy.bf16.bits < FTy.f32.bits)
    (h0 : (⟨2, ![M, K]⟩ : Shape).ShapeCasts ⟨2, ![M, K]⟩) (h1 : (⟨2, ![1, K]⟩ : Shape).ShapeCasts ⟨2, ![1, K]⟩)
    (hb : (⟨2, ![1, K]⟩ : Shape).Broadcasts ⟨2, ![M, K]⟩)
    (h3 : (⟨2, ![1, N]⟩ : Shape).ShapeCasts ⟨2, ![1, N]⟩) (hd : (⟨2, ![1, N]⟩ : Shape).Broadcasts ⟨2, ![M, N]⟩)
    (x0 : FVec Ideal ⟨2, ![M, K]⟩ .f32) (x1 : FVec Ideal ⟨2, ![1, K]⟩ .f32) (x2 : FVec Ideal ⟨2, ![K, N]⟩ .f32)
    (x3 : FVec Ideal ⟨2, ![1, N]⟩ .f32) (p : Fin M) (c : Fin N) :
    addf (matmul (DotDims.plain M K N) none
        (truncf .bf16 (addf (shapeCast ⟨2, ![M, K]⟩ x0 h0) (broadcastTo ⟨2, ![M, K]⟩ (shapeCast ⟨2, ![1, K]⟩ x1 h1) hb)) ht1)
        (truncf .bf16 x2 ht2) (constant (F := Ideal) ⟨2, ![M, N]⟩ .f32 0x00000000#32))
        (broadcastTo ⟨2, ![M, N]⟩ (shapeCast ⟨2, ![1, N]⟩ x3 h3) hd) (ix2 p c)
      = shiftMulShiftAt x0 x1 x2 x3 p c := by
  show matmul (DotDims.plain M K N) none _ _ _ (ix2 p c) + broadcastTo ⟨2, ![M, N]⟩ (shapeCast ⟨2, ![1, N]⟩ x3 h3) hd (ix2 p c) = _
  rw [broadcastTo_1b_ab_apply, shapeCast_self x3]
  unfold shiftMulShiftAt
  refine congrArg (· + x3 (ix2 (0 : Fin 1) c)) ?_
  refine (matmul_plain_apply none _ _ p c).trans (Finset.sum_congr rfl fun k _ => ?_)
  rw [shapeCast_self x0, shapeCast_self x1]
  show (x0 (ix2 p k) + broadcastTo ⟨2, ![M, K]⟩ x1 hb (ix2 p k)) * x2 (ix2 k c) = _
  rw [broadcastTo_1b_ab_apply]

/-! ## The host's spelling -/

/-- A host product. -/
theorem host_mulAt (A : FVec Ideal ⟨2, ![M, K]⟩ .f32) (W : FVec Ideal ⟨2, ![K, N]⟩ .f32) (p : Fin M) (c : Fin N) :
    (Host.dotGeneral (F := Ideal) (DotDims.plain M K N) none A W : FVec Ideal ⟨2, ![M, N]⟩ .f32) (ix2 p c) = mulAt A W p c :=
  dotGeneral_plain_apply none A W p c

end Idealize.ShloMosaic.DenseRows

end
-- ==== Proof.Layer0.lean ====
/-
  The first launch: the node features times the first layer's weights.

  The launch walks over the rows of its first operand in five blocks of 10000; the other operands are small and
  every point reads them whole.  Point t computes from rows 10000·t … 10000·t + 9999 the same rows of the result, and
  row p of a block depends on row p of the operand block only.  So what each point writes back is its block of ONE
  array — the layer's formula applied to the operand arrays as the launch finds them — and since the five blocks
  cover the result array, that array is what the result holds when the launch ends.
-/
import proofs.«140946_j79834852098287_1_alg».proof.Proof.Gen.KernelIdeal.Frame
import proofs.«140946_j79834852098287_1_alg».proof.Proof.LibDenseRows
import Idealize.ShloMosaic.Lib.Pipeline.Value

set_option maxRecDepth 16384

noncomputable section

open Idealize.ShloMosaic Idealize.ShloMosaic.TcCoe Idealize.SL.Sem
open Idealize.ShloMosaic.ValueIdx Idealize.ShloMosaic.DenseRows
open Idealize.ShloMosaic.Pipeline (Dat)

namespace Cert.KernelIdeal.Layer0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The layer, entry by entry: the features times the weights. -/
def out (A : S50000x128.Idx → EReal) (W : S128x64.Idx → EReal) : S50000x64.Idx → EReal :=
  fun i => mulAt A W (i 0) (i 1)

/-- The body's stored value at an entry of its block. -/
theorem pay_apply (x0 : Vec Ideal S10000x128 .f32) (x1 : Vec Ideal S128x64 .f32) (p : Fin 10000) (q : Fin 64) :
    k0_pay1 x0 x1 (ix2 p q) = mulAt x0 x1 p q :=
  kernel_mulAt _ _ x0 x1 p q

/-- Where each window's block sits at a point: the row windows at block t of the rows, the weights at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the operand's block at point t is entry (10000·t + p, k) of the operand. -/
theorem blk0_apply (c : Dev nD) (t : Fin cfg0.N) (p : Fin 10000) (k : Fin 128) (r : Fin 50000) (hr : r.val = t.val * 10000 + p.val) :
    iblk0 V c 0 t (ix2 p k) = V c main_arg0 (ix2 r k) := by
  show V c main_arg0 (((cfg0.win 0).blk t).view.emb (ix2 p k)) = V c main_arg0 (ix2 r k)
  refine congrArg (V c main_arg0) (funext fun a => Fin.ext ?_)
  obtain ⟨e0, e1, -⟩ := idx_facts t
  match a with
  | ⟨0, _⟩ => show win0_0.index t (0 : Fin 2) * 10000 + 1 * p.val = r.val; omega
  | ⟨1, _⟩ => show win0_0.index t (1 : Fin 2) * 128 + 1 * k.val = k.val; omega

/-- The weights' block at any point is the weights. -/
theorem blk1_apply (c : Dev nD) (t : Fin cfg0.N) (k : Fin 128) (q : Fin 64) :
    iblk0 V c 1 t (ix2 k q) = V c main_arg2 (ix2 k q) := by
  show V c main_arg2 (((cfg0.win 1).blk t).view.emb (ix2 k q)) = V c main_arg2 (ix2 k q)
  refine congrArg (V c main_arg2) (funext fun a => Fin.ext ?_)
  obtain ⟨-, -, e0, e1, -⟩ := idx_facts t
  match a with
  | ⟨0, _⟩ => show win0_1.index t (0 : Fin 2) * 128 + 1 * k.val = k.val; omega
  | ⟨1, _⟩ => show win0_1.index t (1 : Fin 2) * 64 + 1 * q.val = q.val; omega

/-- Entry (p, q) of the result's block at point t is entry (10000·t + p, q) of the result array. -/
theorem emb_out (t : Fin cfg0.N) (p : Fin 10000) (q : Fin 64) (r : Fin 50000) (hr : r.val = t.val * 10000 + p.val) :
    ((cfg0.win 2).blk t).view.emb (ix2 p q) = (ix2 r q : S50000x64.Idx) := by
  refine funext fun a => Fin.ext ?_
  obtain ⟨-, -, -, -, e0, e1⟩ := idx_facts t
  match a with
  | ⟨0, _⟩ => show win0_2.index t (0 : Fin 2) * 10000 + 1 * p.val = r.val; omega
  | ⟨1, _⟩ => show win0_2.index t (1 : Fin 2) * 64 + 1 * q.val = q.val; omega

/-- What point t writes back is block t of the product of the operand arrays as the launch finds them. -/
theorem flushed_eq (c : Dev nD) (t : Fin cfg0.N) :
    (dat0 V c).flushed 2 t = ((cfg0.win 2).blk t).view.read (Elt Ideal) (out (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  funext j
  obtain ⟨p, q, rfl⟩ : ∃ (p : Fin 10000) (q : Fin 64), j = ix2 p q := ⟨j 0, j 1, eq_ix2 j⟩
  have hN : cfg0.N = 5 := N_0
  have hr : t.val * 10000 + p.val < 50000 := by have := t.isLt; have := p.isLt; omega
  show k0_pay1 (iblk0 V c 0 t) (iblk0 V c 1 t) (ix2 p q)
    = out (V c main_arg0) (V c main_arg2) (((cfg0.win 2).blk t).view.emb (ix2 p q))
  rw [emb_out t p q ⟨t.val * 10000 + p.val, hr⟩ rfl]
  refine (pay_apply (iblk0 V c 0 t) (iblk0 V c 1 t) p q).trans ?_
  show mulAt (iblk0 V c 0 t) (iblk0 V c 1 t) p q = mulAt (V c main_arg0) (V c main_arg2) ⟨t.val * 10000 + p.val, hr⟩ q
  unfold mulAt
  refine Finset.sum_congr rfl fun k _ => ?_
  rw [blk0_apply V c t p k ⟨t.val * 10000 + p.val, hr⟩ rfl, blk1_apply V c t k q]

/-- An index of the result array is in point t's block iff its row is among the block's rows. -/
theorem mem_blk (t : Fin cfg0.N) (i : S50000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- The five blocks cover the result array: row r is in block r / 10000. -/
theorem cover (i : S50000x64.Idx) : ∃ t : Fin cfg0.N, (cfg0.win 2).flush t = true ∧ i ∈ ((cfg0.win 2).blk t).view.set := by
  have hN : cfg0.N = 5 := N_0
  have hi0 : (i 0).val < 50000 := (i 0).isLt
  have hi1 : (i 1).val < 64 := (i 1).isLt
  refine ⟨⟨(i 0).val / 10000, by rw [hN]; omega⟩, flush0_2 _, ?_⟩
  rw [mem_blk]
  obtain ⟨-, -, -, -, e0, e1⟩ := idx_facts ⟨(i 0).val / 10000, by rw [hN]; omega⟩
  intro a
  match a with
  | ⟨0, _⟩ =>
    show win0_2.index _ (0 : Fin 2) * 10000 ≤ (i 0).val ∧ (i 0).val < win0_2.index _ (0 : Fin 2) * 10000 + 10000
    rw [e0]; show (i 0).val / 10000 * 10000 ≤ (i 0).val ∧ (i 0).val < (i 0).val / 10000 * 10000 + 10000; omega
  | ⟨1, _⟩ =>
    show win0_2.index _ (1 : Fin 2) * 64 ≤ (i 1).val ∧ (i 1).val < win0_2.index _ (1 : Fin 2) * 64 + 64
    rw [e1]; omega

/-- The result array when the launch ends: the product of the operand arrays as the launch finds them. -/
theorem final (c : Dev nD) : (dat0 V c).arrAt 2 cfg0.N = out (V c main_arg0) (V c main_arg2) :=
  (dat0 V c).arrAt_eq_of_cover 2 (out (V c main_arg0) (V c main_arg2)) (fun t _ => flushed_eq V c t) (cover)

end Cert.KernelIdeal.Layer0

end
-- ==== Proof.Layer1.lean ====
/-
  The second launch: the first hidden layer's result shifted by its bias, clamped at zero, times the second layer's weights.

  The launch walks over the rows of its first operand in five blocks of 10000; the other operands are small and
  every point reads them whole.  Point t computes from rows 10000·t … 10000·t + 9999 the same rows of the result, and
  row p of a block depends on row p of the operand block only.  So what each point writes back is its block of ONE
  array — the layer's formula applied to the operand arrays as the launch finds them — and since the five blocks
  cover the result array, that array is what the result holds when the launch ends.
-/
import proofs.«140946_j79834852098287_1_alg».proof.Proof.Gen.KernelIdeal.Frame
import proofs.«140946_j79834852098287_1_alg».proof.Proof.LibDenseRows
import Idealize.ShloMosaic.Lib.Pipeline.Value

set_option maxRecDepth 16384

noncomputable section

open Idealize.ShloMosaic Idealize.ShloMosaic.TcCoe Idealize.SL.Sem
open Idealize.ShloMosaic.ValueIdx Idealize.ShloMosaic.DenseRows
open Idealize.ShloMosaic.Pipeline (Dat)

namespace Cert.KernelIdeal.Layer1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The layer, entry by entry: the operand shifted by the bias row, clamped from below at zero, times the weights. -/
def out (A : S50000x64.Idx → EReal) (b : S1x64.Idx → EReal) (W : S64x32.Idx → EReal) : S50000x32.Idx → EReal :=
  fun i => shiftClampMulAt (Scalar.ofBits (F := Ideal) .f32 0x00000000#32) A b W (i 0) (i 1)

/-- The body's stored value at an entry of its block. -/
theorem pay_apply (x0 : Vec Ideal S10000x64 .f32) (x1 : Vec Ideal S1x64 .f32) (x2 : Vec Ideal S64x32 .f32) (p : Fin 10000) (q : Fin 32) :
    k1_pay1 x0 x1 x2 (ix2 p q) = shiftClampMulAt (Scalar.ofBits (F := Ideal) .f32 0x00000000#32) x0 x1 x2 p q :=
  kernel_shiftClampMulAt _ _ 0x00000000#32 _ _ _ x0 x1 x2 p q

/-- Where each window's block sits at a point: the row windows at block t of the rows, the small operands at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry (p, k) of the operand's block at point t is entry (10000·t + p, k) of the operand. -/
theorem blk0_apply (c : Dev nD) (t : Fin cfg1.N) (p : Fin 10000) (k : Fin 64) (r : Fin 50000) (hr : r.val = t.val * 10000 + p.val) :
    iblk1 V c 0 t (ix2 p k) = V c main_v43 (ix2 r k) := by
  show V c main_v43 (((cfg1.win 0).blk t).view.emb (ix2 p k)) = V c main_v43 (ix2 r k)
  refine congrArg (V c main_v43) (funext fun a => Fin.ext ?_)
  obtain ⟨e0, e1, -⟩ := idx_facts t
  match a with
  | ⟨0, _⟩ => show win1_0.index t (0 : Fin 2) * 10000 + 1 * p.val = r.val; omega
  | ⟨1, _⟩ => show win1_0.index t (1 : Fin 2) * 64 + 1 * k.val = k.val; omega

/-- The bias row's block at any point is the bias row. -/
theorem blk1_apply (c : Dev nD) (t : Fin cfg1.N) (z : Fin 1) (k : Fin 64) :
    iblk1 V c 1 t (ix2 z k) = V c main_v44 (ix2 z k) := by
  show V c main_v44 (((cfg1.win 1).blk t).view.emb (ix2 z k)) = V c main_v44 (ix2 z k)
  refine congrArg (V c main_v44) (funext fun a => Fin.ext ?_)
  obtain ⟨-, -, e0, e1, -⟩ := idx_facts t
  match a with
  | ⟨0, _⟩ => show win1_1.index t (0 : Fin 2) * 1 + 1 * z.val = z.val; omega
  | ⟨1, _⟩ => show win1_1.index t (1 : Fin 2) * 64 + 1 * k.val = k.val; omega

/-- The weights' block at any point is the weights. -/
theorem blk2_apply (c : Dev nD) (t : Fin cfg1.N) (k : Fin 64) (q : Fin 32) :
    iblk1 V c 2 t (ix2 k q) = V c main_arg4 (ix2 k q) := by
  show V c main_arg4 (((cfg1.win 2).blk t).view.emb (ix2 k q)) = V c main_arg4 (ix2 k q)
  refine congrArg (V c main_arg4) (funext fun a => Fin.ext ?_)
  obtain ⟨-, -, -, -, e0, e1, -⟩ := idx_facts t
  match a with
  | ⟨0, _⟩ => show win1_2.index t (0 : Fin 2) * 64 + 1 * k.val = k.val; omega
  | ⟨1, _⟩ => show win1_2.index t (1 : Fin 2) * 32 + 1 * q.val = q.val; omega

/-- Entry (p, q) of the result's block at point t is entry (10000·t + p, q) of the result array. -/
theorem emb_out (t : Fin cfg1.N) (p : Fin 10000) (q : Fin 32) (r : Fin 50000) (hr : r.val = t.val * 10000 + p.val) :
    ((cfg1.win 3).blk t).view.emb (ix2 p q) = (ix2 r q : S50000x32.Idx) := by
  refine funext fun a => Fin.ext ?_
  obtain ⟨-, -, -, -, -, -, e0, e1⟩ := idx_facts t
  match a with
  | ⟨0, _⟩ => show win1_3.index t (0 : Fin 2) * 10000 + 1 * p.val = r.val; omega
  | ⟨1, _⟩ => show win1_3.index t (1 : Fin 2) * 32 + 1 * q.val = q.val; omega

/-- What point t writes back is block t of the layer's formula applied to the operand arrays as the launch finds them. -/
theorem flushed_eq (c : Dev nD) (t : Fin cfg1.N) :
    (dat1 V c).flushed 3 t = ((cfg1.win 3).blk t).view.read (Elt Ideal) (out (V c main_v43) (V c main_v44) (V c main_arg4)) := by
  show (cfg1.win 3).cut (grid1.coords t) ((dat1 V c).after 3 t) = _
  rw [after1_3]
  unfold out1_3
  rw [View.canon_unit_zero hz]
  simp only [View.ld_unit_zero (S := S10000x64) hz, View.ld_unit_zero (S := S1x64) hz, View.ld_unit_zero (S := S64x32) hz]
  funext j
  obtain ⟨p, q, rfl⟩ : ∃ (p : Fin 10000) (q : Fin 32), j = ix2 p q := ⟨j 0, j 1, eq_ix2 j⟩
  have hN : cfg1.N = 5 := N_1
  have hr : t.val * 10000 + p.val < 50000 := by have := t.isLt; have := p.isLt; omega
  show k1_pay1 (iblk1 V c 0 t) (iblk1 V c 1 t) (iblk1 V c 2 t) (ix2 p q)
    = out (V c main_v43) (V c main_v44) (V c main_arg4) (((cfg1.win 3).blk t).view.emb (ix2 p q))
  rw [emb_out t p q ⟨t.val * 10000 + p.val, hr⟩ rfl]
  refine (pay_apply (iblk1 V c 0 t) (iblk1 V c 1 t) (iblk1 V c 2 t) p q).trans ?_
  show shiftClampMulAt _ (iblk1 V c 0 t) (iblk1 V c 1 t) (iblk1 V c 2 t) p q
    = shiftClampMulAt _ (V c main_v43) (V c main_v44) (V c main_arg4) ⟨t.val * 10000 + p.val, hr⟩ q
  unfold shiftClampMulAt
  refine Finset.sum_congr rfl fun k _ => ?_
  rw [blk0_apply V c t p k ⟨t.val * 10000 + p.val, hr⟩ rfl, blk1_apply V c t 0 k, blk2_apply V c t k q]

/-- An index of the result array is in point t's block iff its row is among the block's rows. -/
theorem mem_blk (t : Fin cfg1.N) (i : S50000x32.Idx) :
    i ∈ ((cfg1.win 3).blk t).view.set ↔ ∀ a : Fin 2, win1_3.index t a * S10000x32.size a ≤ (i a).val ∧ (i a).val < win1_3.index t a * S10000x32.size a + S10000x32.size a := by
  show i ∈ ((View.whole main_v45).slice (win1_3.rect t)).set ↔ _
  rw [View.set_slice_whole, Rect.mem_set_unit]
  exact Iff.rfl

/-- The five blocks cover the result array: row r is in block r / 10000. -/
theorem cover (i : S50000x32.Idx) : ∃ t : Fin cfg1.N, (cfg1.win 3).flush t = true ∧ i ∈ ((cfg1.win 3).blk t).view.set := by
  have hN : cfg1.N = 5 := N_1
  have hi0 : (i 0).val < 50000 := (i 0).isLt
  have hi1 : (i 1).val < 32 := (i 1).isLt
  refine ⟨⟨(i 0).val / 10000, by rw [hN]; omega⟩, flush1_3 _, ?_⟩
  rw [mem_blk]
  obtain ⟨-, -, -, -, -, -, e0, e1⟩ := idx_facts ⟨(i 0).val / 10000, by rw [hN]; omega⟩
  intro a
  match a with
  | ⟨0, _⟩ =>
    show win1_3.index _ (0 : Fin 2) * 10000 ≤ (i 0).val ∧ (i 0).val < win1_3.index _ (0 : Fin 2) * 10000 + 10000
    rw [e0]; show (i 0).val / 10000 * 10000 ≤ (i 0).val ∧ (i 0).val < (i 0).val / 10000 * 10000 + 10000; omega
  | ⟨1, _⟩ =>
    show win1_3.index _ (1 : Fin 2) * 32 ≤ (i 1).val ∧ (i 1).val < win1_3.index _ (1 : Fin 2) * 32 + 32
    rw [e1]; omega

/-- The result array when the launch ends: the layer's formula applied to the operand arrays as the launch finds them. -/
theorem final (c : Dev nD) : (dat1 V c).arrAt 3 cfg1.N = out (V c main_v43) (V c main_v44) (V c main_arg4) :=
  (dat1 V c).arrAt_eq_of_cover 3 (out (V c main_v43) (V c main_v44) (V c main_arg4)) (fun t _ => flushed_eq V c t) (cover)

end Cert.KernelIdeal.Layer1

end
-- ==== Proof.Layer2.lean ====
/-
  The third launch: the second hidden layer's result shifted by its bias, clamped at zero, times the third layer's weights.

  The launch walks over the rows of its first operand in five blocks of 10000; the other operands are small and
  every point reads them whole.  Point t computes from rows 10000·t … 10000·t + 9999 the same rows of the result, and
  row p of a block depends on row p of the operand block only.  So what each point writes back is its block of ONE
  array — the layer's formula applied to the operand arrays as the launch finds them — and since the five blocks
  cover the result array, that array is what the result holds when the launch ends.
-/
import proofs.«140946_j79834852098287_1_alg».proof.Proof.Gen.KernelIdeal.Frame
import proofs.«140946_j79834852098287_1_alg».proof.Proof.LibDenseRows
import Idealize.ShloMosaic.Lib.Pipeline.Value

set_option maxRecDepth 16384

noncomputable section

open Idealize.ShloMosaic Idealize.ShloMosaic.TcCoe Idealize.SL.Sem
open Idealize.ShloMosaic.ValueIdx Idealize.ShloMosaic.DenseRows
open Idealize.ShloMosaic.Pipeline (Dat)

namespace Cert.KernelIdeal.Layer2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The layer, entry by entry: the operand shifted by the bias row, clamped from below at zero, times the weights. -/
def out (A : S50000x32.Idx → EReal) (b : S1x32.Idx → EReal) (W : S32x1.Idx → EReal) : S50000x1.Idx → EReal :=
  fun i => shiftClampMulAt (Scalar.ofBits (F := Ideal) .f32 0x00000000#32) A b W (i 0) (i 1)

/-- The body's stored value at an entry of its block. -/
theorem pay_apply (x0 : Vec Ideal S10000x32 .f32) (x1 : Vec Ideal S1x32 .f32) (x2 : Vec Ideal S32x1 .f32) (p : Fin 10000) (q : Fin 1) :
    k2_pay1 x0 x1 x2 (ix2 p q) = shiftClampMulAt (Scalar.ofBits (F := Ideal) .f32 0x00000000#32) x0 x1 x2 p q :=
  kernel_shiftClampMulAt _ _ 0x00000000#32 _ _ _ x0 x1 x2 p q

/-- Where each window's block sits at a point: the row windows at block t of the rows, the small operands at the origin. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Entry (p, k) of the operand's block at point t is entry (10000·t + p, k) of the operand. -/
theorem blk0_apply (c : Dev nD) (t : Fin cfg2.N) (p : Fin 10000) (k : Fin 32) (r : Fin 50000) (hr : r.val = t.val * 10000 + p.val) :
    iblk2 V c 0 t (ix2 p k) = V c main_v58 (ix2 r k) := by
  show V c main_v58 (((cfg2.win 0).blk t).view.emb (ix2 p k)) = V c main_v58 (ix2 r k)
  refine congrArg (V c main_v58) (funext fun a => Fin.ext ?_)
  obtain ⟨e0, e1, -⟩ := idx_facts t
  match a with
  | ⟨0, _⟩ => show win2_0.index t (0 : Fin 2) * 10000 + 1 * p.val = r.val; omega
  | ⟨1, _⟩ => show win2_0.index t (1 : Fin 2) * 32 + 1 * k.val = k.val; omega

/-- The bias row's block at any point is the bias row. -/
theorem blk1_apply (c : Dev nD) (t : Fin cfg2.N) (z : Fin 1) (k : Fin 32) :
    iblk2 V c 1 t (ix2 z k) = V c main_v59 (ix2 z k) := by
  show V c main_v59 (((cfg2.win 1).blk t).view.emb (ix2 z k)) = V c main_v59 (ix2 z k)
  refine congrArg (V c main_v59) (funext fun a => Fin.ext ?_)
  obtain ⟨-, -, e0, e1, -⟩ := idx_facts t
  match a with
  | ⟨0, _⟩ => show win2_1.index t (0 : Fin 2) * 1 + 1 * z.val = z.val; omega
  | ⟨1, _⟩ => show win2_1.index t (1 : Fin 2) * 32 + 1 * k.val = k.val; omega

/-- The weights' block at any point is the weights. -/
theorem blk2_apply (c : Dev nD) (t : Fin cfg2.N) (k : Fin 32) (q : Fin 1) :
    iblk2 V c 2 t (ix2 k q) = V c main_arg6 (ix2 k q) := by
  show V c main_arg6 (((cfg2.win 2).blk t).view.emb (ix2 k q)) = V c main_arg6 (ix2 k q)
  refine congrArg (V c main_arg6) (funext fun a => Fin.ext ?_)
  obtain ⟨-, -, -, -, e0, e1, -⟩ := idx_facts t
  match a with
  | ⟨0, _⟩ => show win2_2.index t (0 : Fin 2) * 32 + 1 * k.val = k.val; omega
  | ⟨1, _⟩ => show win2_2.index t (1 : Fin 2) * 1 + 1 * q.val = q.val; omega

/-- Entry (p, q) of the result's block at point t is entry (10000·t + p, q) of the result array. -/
theorem emb_out (t : Fin cfg2.N) (p : Fin 10000) (q : Fin 1) (r : Fin 50000) (hr : r.val = t.val * 10000 + p.val) :
    ((cfg2.win 3).blk t).view.emb (ix2 p q) = (ix2 r q : S50000x1.Idx) := by
  refine funext fun a => Fin.ext ?_
  obtain ⟨-, -, -, -, -, -, e0, e1⟩ := idx_facts t
  match a with
  | ⟨0, _⟩ => show win2_3.index t (0 : Fin 2) * 10000 + 1 * p.val = r.val; omega
  | ⟨1, _⟩ => show win2_3.index t (1 : Fin 2) * 1 + 1 * q.val = q.val; omega

/-- What point t writes back is block t of the layer's formula applied to the operand arrays as the launch finds them. -/
theorem flushed_eq (c : Dev nD) (t : Fin cfg2.N) :
    (dat2 V c).flushed 3 t = ((cfg2.win 3).blk t).view.read (Elt Ideal) (out (V c main_v58) (V c main_v59) (V c main_arg6)) := by
  show (cfg2.win 3).cut (grid2.coords t) ((dat2 V c).after 3 t) = _
  rw [after2_3]
  unfold out2_3
  rw [View.canon_unit_zero hz]
  simp only [View.ld_unit_zero (S := S10000x32) hz, View.ld_unit_zero (S := S1x32) hz, View.ld_unit_zero (S := S32x1) hz]
  funext j
  obtain ⟨p, q, rfl⟩ : ∃ (p : Fin 10000) (q : Fin 1), j = ix2 p q := ⟨j 0, j 1, eq_ix2 j⟩
  have hN : cfg2.N = 5 := N_2
  have hr : t.val * 10000 + p.val < 50000 := by have := t.isLt; have := p.isLt; omega
  show k2_pay1 (iblk2 V c 0 t) (iblk2 V c 1 t) (iblk2 V c 2 t) (ix2 p q)
    = out (V c main_v58) (V c main_v59) (V c main_arg6) (((cfg2.win 3).blk t).view.emb (ix2 p q))
  rw [emb_out t p q ⟨t.val * 10000 + p.val, hr⟩ rfl]
  refine (pay_apply (iblk2 V c 0 t) (iblk2 V c 1 t) (iblk2 V c 2 t) p q).trans ?_
  show shiftClampMulAt _ (iblk2 V c 0 t) (iblk2 V c 1 t) (iblk2 V c 2 t) p q
    = shiftClampMulAt _ (V c main_v58) (V c main_v59) (V c main_arg6) ⟨t.val * 10000 + p.val, hr⟩ q
  unfold shiftClampMulAt
  refine Finset.sum_congr rfl fun k _ => ?_
  rw [blk0_apply V c t p k ⟨t.val * 10000 + p.val, hr⟩ rfl, blk1_apply V c t 0 k, blk2_apply V c t k q]

/-- An index of the result array is in point t's block iff its row is among the block's rows. -/
theorem mem_blk (t : Fin cfg2.N) (i : S50000x1.Idx) :
    i ∈ ((cfg2.win 3).blk t).view.set ↔ ∀ a : Fin 2, win2_3.index t a * S10000x1.size a ≤ (i a).val ∧ (i a).val < win2_3.index t a * S10000x1.size a + S10000x1.size a := by
  show i ∈ ((View.whole main_v60).slice (win2_3.rect t)).set ↔ _
  rw [View.set_slice_whole, Rect.mem_set_unit]
  exact Iff.rfl

/-- The five blocks cover the result array: row r is in block r / 10000. -/
theorem cover (i : S50000x1.Idx) : ∃ t : Fin cfg2.N, (cfg2.win 3).flush t = true ∧ i ∈ ((cfg2.win 3).blk t).view.set := by
  have hN : cfg2.N = 5 := N_2
  have hi0 : (i 0).val < 50000 := (i 0).isLt
  have hi1 : (i 1).val < 1 := (i 1).isLt
  refine ⟨⟨(i 0).val / 10000, by rw [hN]; omega⟩, flush2_3 _, ?_⟩
  rw [mem_blk]
  obtain ⟨-, -, -, -, -, -, e0, e1⟩ := idx_facts ⟨(i 0).val / 10000, by rw [hN]; omega⟩
  intro a
  match a with
  | ⟨0, _⟩ =>
    show win2_3.index _ (0 : Fin 2) * 10000 ≤ (i 0).val ∧ (i 0).val < win2_3.index _ (0 : Fin 2) * 10000 + 10000
    rw [e0]; show (i 0).val / 10000 * 10000 ≤ (i 0).val ∧ (i 0).val < (i 0).val / 10000 * 10000 + 10000; omega
  | ⟨1, _⟩ =>
    show win2_3.index _ (1 : Fin 2) * 1 ≤ (i 1).val ∧ (i 1).val < win2_3.index _ (1 : Fin 2) * 1 + 1
    rw [e1]; omega

/-- The result array when the launch ends: the layer's formula applied to the operand arrays as the launch finds them. -/
theorem final (c : Dev nD) : (dat2 V c).arrAt 3 cfg2.N = out (V c main_v58) (V c main_v59) (V c main_arg6) :=
  (dat2 V c).arrAt_eq_of_cover 3 (out (V c main_v58) (V c main_v59) (V c main_arg6)) (fun t _ => flushed_eq V c t) (cover)

end Cert.KernelIdeal.Layer2

end
-- ==== Proof.Layer3.lean ====
/-
  The fourth launch: the third layer's result shifted by its bias, times the output weights, plus the output bias.

  The launch walks over the rows of its first operand in five blocks of 10000; the other operands are small and
  every point reads them whole.  Point t computes from rows 10000·t … 10000·t + 9999 the same rows of the result, and
  row p of a block depends on row p of the operand block only.  So what each point writes back is its block of ONE
  array — the layer's formula applied to the operand arrays as the launch finds them — and since the five blocks
  cover the result array, that array is what the result holds when the launch ends.
-/
import proofs.«140946_j79834852098287_1_alg».proof.Proof.Gen.KernelIdeal.Frame
import proofs.«140946_j79834852098287_1_alg».proof.Proof.LibDenseRows
import Idealize.ShloMosaic.Lib.Pipeline.Value

set_option maxRecDepth 16384

noncomputable section

open Idealize.ShloMosaic Idealize.ShloMosaic.TcCoe Idealize.SL.Sem
open Idealize.ShloMosaic.ValueIdx Idealize.ShloMosaic.DenseRows
open Idealize.ShloMosaic.Pipeline (Dat)

namespace Cert.KernelIdeal.Layer3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The layer, entry by entry: the operand shifted by the bias row, times the weights, the output bias row added. -/
def out (A : S50000x1.Idx → EReal) (b : S1x1.Idx → EReal) (W : S1x8.Idx → EReal) (d : S1x8.Idx → EReal) : S50000x8.Idx → EReal :=
  fun i => shiftMulShiftAt A b W d (i 0) (i 1)

/-- The body's stored value at an entry of its block. -/
theorem pay_apply (x0 : Vec Ideal S10000x1 .f32) (x1 : Vec Ideal S1x1 .f32) (x2 : Vec Ideal S1x8 .f32) (x3 : Vec Ideal S1x8 .f32) (p : Fin 10000) (q : Fin 8) :
    k3_pay1 x0 x1 x2 x3 (ix2 p q) = shiftMulShiftAt x0 x1 x2 x3 p q :=
  kernel_shiftMulShiftAt _ _ _ _ _ _ _ x0 x1 x2 x3 p q

/-- Where each window's block sits at a point: the row windows at block t of the rows, the small operands at the origin. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Entry (p, k) of the operand's block at point t is entry (10000·t + p, k) of the operand. -/
theorem blk0_apply (c : Dev nD) (t : Fin cfg3.N) (p : Fin 10000) (k : Fin 1) (r : Fin 50000) (hr : r.val = t.val * 10000 + p.val) :
    iblk3 V c 0 t (ix2 p k) = V c main_v72 (ix2 r k) := by
  show V c main_v72 (((cfg3.win 0).blk t).view.emb (ix2 p k)) = V c main_v72 (ix2 r k)
  refine congrArg (V c main_v72) (funext fun a => Fin.ext ?_)
  obtain ⟨e0, e1, -⟩ := idx_facts t
  match a with
  | ⟨0, _⟩ => show win3_0.index t (0 : Fin 2) * 10000 + 1 * p.val = r.val; omega
  | ⟨1, _⟩ => show win3_0.index t (1 : Fin 2) * 1 + 1 * k.val = k.val; omega

/-- The bias row's block at any point is the bias row. -/
theorem blk1_apply (c : Dev nD) (t : Fin cfg3.N) (z : Fin 1) (k : Fin 1) :
    iblk3 V c 1 t (ix2 z k) = V c main_v73 (ix2 z k) := by
  show V c main_v73 (((cfg3.win 1).blk t).view.emb (ix2 z k)) = V c main_v73 (ix2 z k)
  refine congrArg (V c main_v73) (funext fun a => Fin.ext ?_)
  obtain ⟨-, -, e0, e1, -⟩ := idx_facts t
  match a with
  | ⟨0, _⟩ => show win3_1.index t (0 : Fin 2) * 1 + 1 * z.val = z.val; omega
  | ⟨1, _⟩ => show win3_1.index t (1 : Fin 2) * 1 + 1 * k.val = k.val; omega

/-- The weights' block at any point is the weights. -/
theorem blk2_apply (c : Dev nD) (t : Fin cfg3.N) (k : Fin 1) (q : Fin 8) :
    iblk3 V c 2 t (ix2 k q) = V c main_arg8 (ix2 k q) := by
  show V c main_arg8 (((cfg3.win 2).blk t).view.emb (ix2 k q)) = V c main_arg8 (ix2 k q)
  refine congrArg (V c main_arg8) (funext fun a => Fin.ext ?_)
  obtain ⟨-, -, -, -, e0, e1, -⟩ := idx_facts t
  match a with
  | ⟨0, _⟩ => show win3_2.index t (0 : Fin 2) * 1 + 1 * k.val = k.val; omega
  | ⟨1, _⟩ => show win3_2.index t (1 : Fin 2) * 8 + 1 * q.val = q.val; omega

/-- The output bias row's block at any point is the output bias row. -/
theorem blk3_apply (c : Dev nD) (t : Fin cfg3.N) (z : Fin 1) (q : Fin 8) :
    iblk3 V c 3 t (ix2 z q) = V c main_v74 (ix2 z q) := by
  show V c main_v74 (((cfg3.win 3).blk t).view.emb (ix2 z q)) = V c main_v74 (ix2 z q)
  refine congrArg (V c main_v74) (funext fun a => Fin.ext ?_)
  obtain ⟨-, -, -, -, -, -, e0, e1, -⟩ := idx_facts t
  match a with
  | ⟨0, _⟩ => show win3_3.index t (0 : Fin 2) * 1 + 1 * z.val = z.val; omega
  | ⟨1, _⟩ => show win3_3.index t (1 : Fin 2) * 8 + 1 * q.val = q.val; omega

/-- Entry (p, q) of the result's block at point t is entry (10000·t + p, q) of the result array. -/
theorem emb_out (t : Fin cfg3.N) (p : Fin 10000) (q : Fin 8) (r : Fin 50000) (hr : r.val = t.val * 10000 + p.val) :
    ((cfg3.win 4).blk t).view.emb (ix2 p q) = (ix2 r q : S50000x8.Idx) := by
  refine funext fun a => Fin.ext ?_
  obtain ⟨-, -, -, -, -, -, -, -, e0, e1⟩ := idx_facts t
  match a with
  | ⟨0, _⟩ => show win3_4.index t (0 : Fin 2) * 10000 + 1 * p.val = r.val; omega
  | ⟨1, _⟩ => show win3_4.index t (1 : Fin 2) * 8 + 1 * q.val = q.val; omega

/-- What point t writes back is block t of the layer's formula applied to the operand arrays as the launch finds them. -/
theorem flushed_eq (c : Dev nD) (t : Fin cfg3.N) :
    (dat3 V c).flushed 4 t = ((cfg3.win 4).blk t).view.read (Elt Ideal) (out (V c main_v72) (V c main_v73) (V c main_arg8) (V c main_v74)) := by
  show (cfg3.win 4).cut (grid3.coords t) ((dat3 V c).after 4 t) = _
  rw [after3_4]
  unfold out3_4
  rw [View.canon_unit_zero hz]
  simp only [View.ld_unit_zero (S := S10000x1) hz, View.ld_unit_zero (S := S1x1) hz, View.ld_unit_zero (S := S1x8) hz]
  funext j
  obtain ⟨p, q, rfl⟩ : ∃ (p : Fin 10000) (q : Fin 8), j = ix2 p q := ⟨j 0, j 1, eq_ix2 j⟩
  have hN : cfg3.N = 5 := N_3
  have hr : t.val * 10000 + p.val < 50000 := by have := t.isLt; have := p.isLt; omega
  show k3_pay1 (iblk3 V c 0 t) (iblk3 V c 1 t) (iblk3 V c 2 t) (iblk3 V c 3 t) (ix2 p q)
    = out (V c main_v72) (V c main_v73) (V c main_arg8) (V c main_v74) (((cfg3.win 4).blk t).view.emb (ix2 p q))
  rw [emb_out t p q ⟨t.val * 10000 + p.val, hr⟩ rfl]
  refine (pay_apply (iblk3 V c 0 t) (iblk3 V c 1 t) (iblk3 V c 2 t) (iblk3 V c 3 t) p q).trans ?_
  show shiftMulShiftAt (iblk3 V c 0 t) (iblk3 V c 1 t) (iblk3 V c 2 t) (iblk3 V c 3 t) p q
    = shiftMulShiftAt (V c main_v72) (V c main_v73) (V c main_arg8) (V c main_v74) ⟨t.val * 10000 + p.val, hr⟩ q
  unfold shiftMulShiftAt
  rw [blk3_apply V c t 0 q]
  refine congrArg (· + V c main_v74 (ix2 (0 : Fin 1) q)) (Finset.sum_congr rfl fun k _ => ?_)
  rw [blk0_apply V c t p k ⟨t.val * 10000 + p.val, hr⟩ rfl, blk1_apply V c t 0 k, blk2_apply V c t k q]

/-- An index of the result array is in point t's block iff its row is among the block's rows. -/
theorem mem_blk (t : Fin cfg3.N) (i : S50000x8.Idx) :
    i ∈ ((cfg3.win 4).blk t).view.set ↔ ∀ a : Fin 2, win3_4.index t a * S10000x8.size a ≤ (i a).val ∧ (i a).val < win3_4.index t a * S10000x8.size a + S10000x8.size a := by
  show i ∈ ((View.whole main_v75).slice (win3_4.rect t)).set ↔ _
  rw [View.set_slice_whole, Rect.mem_set_unit]
  exact Iff.rfl

/-- The five blocks cover the result array: row r is in block r / 10000. -/
theorem cover (i : S50000x8.Idx) : ∃ t : Fin cfg3.N, (cfg3.win 4).flush t = true ∧ i ∈ ((cfg3.win 4).blk t).view.set := by
  have hN : cfg3.N = 5 := N_3
  have hi0 : (i 0).val < 50000 := (i 0).isLt
  have hi1 : (i 1).val < 8 := (i 1).isLt
  refine ⟨⟨(i 0).val / 10000, by rw [hN]; omega⟩, flush3_4 _, ?_⟩
  rw [mem_blk]
  obtain ⟨-, -, -, -, -, -, -, -, e0, e1⟩ := idx_facts ⟨(i 0).val / 10000, by rw [hN]; omega⟩
  intro a
  match a with
  | ⟨0, _⟩ =>
    show win3_4.index _ (0 : Fin 2) * 10000 ≤ (i 0).val ∧ (i 0).val < win3_4.index _ (0 : Fin 2) * 10000 + 10000
    rw [e0]; show (i 0).val / 10000 * 10000 ≤ (i 0).val ∧ (i 0).val < (i 0).val / 10000 * 10000 + 10000; omega
  | ⟨1, _⟩ =>
    show win3_4.index _ (1 : Fin 2) * 8 ≤ (i 1).val ∧ (i 1).val < win3_4.index _ (1 : Fin 2) * 8 + 8
    rw [e1]; omega

/-- The result array when the launch ends: the layer's formula applied to the operand arrays as the launch finds them. -/
theorem final (c : Dev nD) : (dat3 V c).arrAt 4 cfg3.N = out (V c main_v72) (V c main_v73) (V c main_arg8) (V c main_v74) :=
  (dat3 V c).arrAt_eq_of_cover 4 (out (V c main_v72) (V c main_v73) (V c main_arg8) (V c main_v74)) (fun t _ => flushed_eq V c t) (cover)

end Cert.KernelIdeal.Layer3

end
-- ==== Proof.RefLayers.lean ====
/-
  The reference's dense layers, entry by entry.

  The reference applies each layer to the whole node array with host operations: it adds the bias (a vector broadcast
  to a row and then down the rows), clamps at zero in the hidden layers, and multiplies by the weights with a general
  product.  Read at one entry these are the same row formulas the kernel's launches compute block by block.  The bias
  is taken here as ANY one-row matrix whose entries are the bias vector's, which is how the kernel passes it.
-/
import proofs.«140946_j79834852098287_1_alg».proof.Proof.RefRead
import proofs.«140946_j79834852098287_1_alg».proof.Proof.LibDenseRows

set_option maxRecDepth 16384

noncomputable section

open scoped BigOperators
open Idealize.ShloMosaic Idealize.ShloMosaic.TcCoe Idealize.SL.Sem
open Idealize.ShloMosaic.ValueIdx Idealize.ShloMosaic.DenseRows

namespace Cert.ReferenceIdeal.Layers

open Cert.ReferenceIdeal Cert.ReferenceIdeal.Gen Cert.ReferenceIdeal.ReadP

/-- The first layer's product. -/
theorem v30_eq (x0 : (⟨S50000x128, .f32⟩ : BufTy).Contents (Elt Ideal)) (x2 : (⟨S128x64, .f32⟩ : BufTy).Contents (Elt Ideal)) :
    val_main_v30 (F := Ideal) x0 x2 = fun i => mulAt x0 x2 (i 0) (i 1) := by
  funext i
  obtain ⟨p, q, rfl⟩ : ∃ (p : Fin 50000) (q : Fin 64), i = ix2 p q := ⟨i 0, i 1, eq_ix2 i⟩
  rw [val_main_v30_apply]
  show _ = mulAt x0 x2 p q
  unfold mulAt
  refine Finset.sum_congr rfl fun k _ => ?_
  have hl : lidx_main_v30 (ix2 p q) k = ix2 p k := funext fun a => by match a with | ⟨0, _⟩ => rfl | ⟨1, _⟩ => rfl
  have hr : ridx_main_v30 (ix2 p q) k = ix2 k q := funext fun a => by match a with | ⟨0, _⟩ => rfl | ⟨1, _⟩ => rfl
  rw [hl, hr]

/-- The second layer's product of the first layer's clamped, shifted aggregate. -/
theorem v48_eq (x0 : (⟨S50000x128, .f32⟩ : BufTy).Contents (Elt Ideal)) (x1 : (⟨S2x800000, .i32⟩ : BufTy).Contents (Elt Ideal)) (x2 : (⟨S128x64, .f32⟩ : BufTy).Contents (Elt Ideal))
    (x3 : (⟨S64, .f32⟩ : BufTy).Contents (Elt Ideal)) (x4 : (⟨S64x32, .f32⟩ : BufTy).Contents (Elt Ideal)) (b : S1x64.Idx → EReal)
    (hb : ∀ k : Fin 64, b (ix2 (0 : Fin 1) k) = x3 (ix1 k)) :
    val_main_v48 (F := Ideal) x0 x1 x2 x3 x4
      = fun i => shiftClampMulAt (Scalar.ofBits (F := Ideal) .f32 0x00000000#32) (val_main_v43 (F := Ideal) x0 x1 x2) b x4 (i 0) (i 1) := by
  funext i
  obtain ⟨p, q, rfl⟩ : ∃ (p : Fin 50000) (q : Fin 32), i = ix2 p q := ⟨i 0, i 1, eq_ix2 i⟩
  rw [val_main_v48_apply]
  show _ = shiftClampMulAt _ (val_main_v43 (F := Ideal) x0 x1 x2) b x4 p q
  unfold shiftClampMulAt
  refine Finset.sum_congr rfl fun k _ => ?_
  have hl : lidx_main_v48 (ix2 p q) k = ix2 p k := funext fun a => by match a with | ⟨0, _⟩ => rfl | ⟨1, _⟩ => rfl
  have hr : ridx_main_v48 (ix2 p q) k = ix2 k q := funext fun a => by match a with | ⟨0, _⟩ => rfl | ⟨1, _⟩ => rfl
  have hi : idx_main_v44 (idx_main_v45 (ix2 p k)) = ix1 k := funext fun a => by match a with | ⟨0, _⟩ => rfl
  rw [hl, hr, val_main_v47_apply, val_main_v46_apply, val_main_v45_apply, val_main_v44_apply, val_main_call1_v0_apply,
    val_main_call1_cst_apply, hi, hb]
  rfl

/-- The third layer's product of the second layer's clamped, shifted aggregate. -/
theorem v66_eq (x0 : (⟨S50000x128, .f32⟩ : BufTy).Contents (Elt Ideal)) (x1 : (⟨S2x800000, .i32⟩ : BufTy).Contents (Elt Ideal)) (x2 : (⟨S128x64, .f32⟩ : BufTy).Contents (Elt Ideal))
    (x3 : (⟨S64, .f32⟩ : BufTy).Contents (Elt Ideal)) (x4 : (⟨S64x32, .f32⟩ : BufTy).Contents (Elt Ideal)) (x5 : (⟨S32, .f32⟩ : BufTy).Contents (Elt Ideal)) (x6 : (⟨S32x1, .f32⟩ : BufTy).Contents (Elt Ideal)) (b : S1x32.Idx → EReal)
    (hb : ∀ k : Fin 32, b (ix2 (0 : Fin 1) k) = x5 (ix1 k)) :
    val_main_v66 (F := Ideal) x0 x1 x2 x3 x4 x5 x6
      = fun i => shiftClampMulAt (Scalar.ofBits (F := Ideal) .f32 0x00000000#32) (val_main_v61 (F := Ideal) x0 x1 x2 x3 x4) b x6 (i 0) (i 1) := by
  funext i
  obtain ⟨p, q, rfl⟩ : ∃ (p : Fin 50000) (q : Fin 1), i = ix2 p q := ⟨i 0, i 1, eq_ix2 i⟩
  rw [val_main_v66_apply]
  show _ = shiftClampMulAt _ (val_main_v61 (F := Ideal) x0 x1 x2 x3 x4) b x6 p q
  unfold shiftClampMulAt
  refine Finset.sum_congr rfl fun k _ => ?_
  have hl : lidx_main_v66 (ix2 p q) k = ix2 p k := funext fun a => by match a with | ⟨0, _⟩ => rfl | ⟨1, _⟩ => rfl
  have hr : ridx_main_v66 (ix2 p q) k = ix2 k q := funext fun a => by match a with | ⟨0, _⟩ => rfl | ⟨1, _⟩ => rfl
  have hi : idx_main_v62 (idx_main_v63 (ix2 p k)) = ix1 k := funext fun a => by match a with | ⟨0, _⟩ => rfl
  rw [hl, hr, val_main_v65_apply, val_main_v64_apply, val_main_v63_apply, val_main_v62_apply, val_main_call2_v0_apply,
    val_main_call2_cst_apply, hi, hb]
  rfl

/-- The output layer: the third layer's shifted aggregate (squeezed to a vector and made a column again, which changes
    no entry) times the output weights, plus the output bias. -/
theorem v87_eq (x0 : (⟨S50000x128, .f32⟩ : BufTy).Contents (Elt Ideal)) (x1 : (⟨S2x800000, .i32⟩ : BufTy).Contents (Elt Ideal)) (x2 : (⟨S128x64, .f32⟩ : BufTy).Contents (Elt Ideal))
    (x3 : (⟨S64, .f32⟩ : BufTy).Contents (Elt Ideal)) (x4 : (⟨S64x32, .f32⟩ : BufTy).Contents (Elt Ideal)) (x5 : (⟨S32, .f32⟩ : BufTy).Contents (Elt Ideal)) (x6 : (⟨S32x1, .f32⟩ : BufTy).Contents (Elt Ideal)) (x7 : (⟨S1, .f32⟩ : BufTy).Contents (Elt Ideal)) (x8 : (⟨S1x8, .f32⟩ : BufTy).Contents (Elt Ideal))
    (x9 : (⟨S8, .f32⟩ : BufTy).Contents (Elt Ideal)) (b : S1x1.Idx → EReal) (d : S1x8.Idx → EReal)
    (hb : ∀ k : Fin 1, b (ix2 (0 : Fin 1) k) = x7 (ix1 k)) (hd : ∀ q : Fin 8, d (ix2 (0 : Fin 1) q) = x9 (ix1 q)) :
    val_main_v87 (F := Ideal) x0 x1 x2 x3 x4 x5 x6 x7 x8 x9
      = fun i => shiftMulShiftAt (val_main_v78 (F := Ideal) x0 x1 x2 x3 x4 x5 x6) b x8 d (i 0) (i 1) := by
  funext i
  obtain ⟨p, q, rfl⟩ : ∃ (p : Fin 50000) (q : Fin 8), i = ix2 p q := ⟨i 0, i 1, eq_ix2 i⟩
  rw [val_main_v87_apply, val_main_v84_apply, val_main_v86_apply, val_main_v85_apply]
  show _ = shiftMulShiftAt (val_main_v78 (F := Ideal) x0 x1 x2 x3 x4 x5 x6) b x8 d p q
  unfold shiftMulShiftAt
  have hj : idx_main_v85 (idx_main_v86 (ix2 p q)) = ix1 q := funext fun a => by match a with | ⟨0, _⟩ => rfl
  rw [hj, hd]
  refine congrArg (· + x9 (ix1 q)) (Finset.sum_congr rfl fun k _ => ?_)
  have hk : k.val = 0 := by have := k.isLt; omega
  have hl : idx_main_v82 (idx_main_v83 (lidx_main_v84 (ix2 p q) k)) = ix2 p k := funext fun a => Fin.ext (by
    match a with
    | ⟨0, _⟩ => show p.val / 1 = p.val; exact Nat.div_one _
    | ⟨1, _⟩ => show 0 = k.val; exact hk.symm)
  have hr : ridx_main_v84 (ix2 p q) k = ix2 k q := funext fun a => by match a with | ⟨0, _⟩ => rfl | ⟨1, _⟩ => rfl
  have hi : idx_main_v79 (idx_main_v80 (ix2 p k)) = ix1 k := funext fun a => Fin.ext (by
    match a with
    | ⟨0, _⟩ => show 0 = k.val; exact hk.symm)
  rw [val_main_v83_apply, val_main_v82_apply, hl, hr, val_main_v81_apply, val_main_v80_apply, val_main_v79_apply, hi, hb]
  rfl

end Cert.ReferenceIdeal.Layers

end
-- ==== Proof.LibHostLayout.lean ====
/-
  Host layout operations read at one entry.

  A host program moves arrays between shapes without computing anything: it broadcasts a scalar, a vector or a
  one-column / one-row matrix to a larger shape, reshapes a vector into a one-row matrix, cuts a band of rows out of
  a matrix, and lays matrices side by side along the columns. Each such operation, read at ONE index of its result,
  is its operand read at one index; the lemmas below name that index for rank 1 and rank 2 shapes of arbitrary
  extents, with the indices written by their coordinates. On an operand axis of extent one a broadcast reads
  coordinate 0, which is also the only coordinate there is, so the statements hold at extent one too. Nothing here
  enumerates an index type: every proof is coordinate arithmetic.
-/
import Idealize.ShloMosaic.PureOps.Ideal
import Idealize.ShloMosaic.Lib.ValueIdx
import Idealize.ShloMosaic.Lib.Pipeline.Value

namespace Cert.HostLayout

open Idealize.ShloMosaic Idealize.ShloMosaic.ValueIdx

variable {α : Type}

/-- A coordinate below an extent is itself, and is 0 when the extent is one. -/
theorem val_eq_ite {n : Nat} (k : Fin n) : k.val = if n = 1 then 0 else k.val := by
  have := k.isLt
  split <;> omega

/-! ## Broadcasts -/

/-- A scalar broadcast to any shape reads the scalar everywhere. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun a => a.elim0)

/-- A vector of N entries made a column [N, 1]: entry (n, 0) is entry n. -/
theorem bcast_col_apply {N : Nat} (h : (⟨1, ![N]⟩ : Shape).BroadcastsInDim ⟨2, ![N, 1]⟩ (![0] : Fin 1 → Fin 2))
    (x : (⟨1, ![N]⟩ : Shape).Idx → α) (n : Fin N) (z : Fin 1) :
    broadcastInDim ⟨2, ![N, 1]⟩ ![0] h x (ix2 n z) = x (ix1 n) := by
  refine broadcastInDim_apply ![0] h x (ix2 n z) (ix1 n) ?_
  intro a
  match a with
  | ⟨0, _⟩ => exact val_eq_ite n

/-- A column [N, 1] repeated along C columns: entry (n, q) is the column's entry (n, 0). -/
theorem bcast_rows_apply {N C : Nat} (h : (⟨2, ![N, 1]⟩ : Shape).BroadcastsInDim ⟨2, ![N, C]⟩ (![0, 1] : Fin 2 → Fin 2))
    (x : (⟨2, ![N, 1]⟩ : Shape).Idx → α) (n : Fin N) (q : Fin C) :
    broadcastInDim ⟨2, ![N, C]⟩ ![0, 1] h x (ix2 n q) = x (ix2 n (0 : Fin 1)) := by
  refine broadcastInDim_apply ![0, 1] h x (ix2 n q) (ix2 n (0 : Fin 1)) ?_
  intro a
  match a with
  | ⟨0, _⟩ => exact val_eq_ite n
  | ⟨1, _⟩ => exact (if_pos rfl).symm

/-- A vector of C entries made a row [1, C]: entry (0, q) is entry q. -/
theorem bcast_rowvec_apply {C : Nat} (h : (⟨1, ![C]⟩ : Shape).BroadcastsInDim ⟨2, ![1, C]⟩ (![1] : Fin 1 → Fin 2))
    (x : (⟨1, ![C]⟩ : Shape).Idx → α) (z : Fin 1) (q : Fin C) :
    broadcastInDim ⟨2, ![1, C]⟩ ![1] h x (ix2 z q) = x (ix1 q) := by
  refine broadcastInDim_apply ![1] h x (ix2 z q) (ix1 q) ?_
  intro a
  match a with
  | ⟨0, _⟩ => exact val_eq_ite q

/-- A row [1, C] repeated down R rows: entry (r, q) is the row's entry (0, q). -/
theorem bcast_cols_apply {R C : Nat} (h : (⟨2, ![1, C]⟩ : Shape).BroadcastsInDim ⟨2, ![R, C]⟩ (![0, 1] : Fin 2 → Fin 2))
    (x : (⟨2, ![1, C]⟩ : Shape).Idx → α) (r : Fin R) (q : Fin C) :
    broadcastInDim ⟨2, ![R, C]⟩ ![0, 1] h x (ix2 r q) = x (ix2 (0 : Fin 1) q) := by
  refine broadcastInDim_apply ![0, 1] h x (ix2 r q) (ix2 (0 : Fin 1) q) ?_
  intro a
  match a with
  | ⟨0, _⟩ => exact (if_pos rfl).symm
  | ⟨1, _⟩ => exact val_eq_ite q

/-! ## A reshape and a slice -/

/-- A vector of C entries reshaped to a row [1, C]: the row-major positions of (0, q) and of q agree. -/
theorem reshape_rowvec_apply {C : Nat} (h : (⟨1, ![C]⟩ : Shape).ShapeCasts ⟨2, ![1, C]⟩)
    (x : (⟨1, ![C]⟩ : Shape).Idx → α) (z : Fin 1) (q : Fin C) :
    shapeCast ⟨2, ![1, C]⟩ x h (ix2 z q) = x (ix1 q) := by
  refine shapeCast_apply x h (ix2 z q) (ix1 q) ?_
  rw [Shape.rowMajor_val_one, Shape.rowMajor_val_two]
  obtain rfl : z = 0 := Subsingleton.elim _ _
  show q.val = 0 * C + q.val
  omega

/-- A band of K1 rows of a [K, C] matrix starting at row `off`: entry (k, q) of the band is entry (off + k, q). -/
theorem slice_rows_apply {K K1 C : Nat} (off : Nat) (h : (⟨2, ![K, C]⟩ : Shape).Slices ![off, 0] ⟨2, ![K1, C]⟩)
    (x : (⟨2, ![K, C]⟩ : Shape).Idx → α) (k : Fin K1) (q : Fin C) (hk : off + k.val < K) :
    extractStridedSlice ⟨2, ![K1, C]⟩ ![off, 0] x h (ix2 k q) = x (ix2 ⟨off + k.val, hk⟩ q) := by
  refine extractStridedSlice_apply ![off, 0] x h (ix2 k q) (ix2 ⟨off + k.val, hk⟩ q) ?_
  intro a
  match a with
  | ⟨0, _⟩ => rfl
  | ⟨1, _⟩ => exact (Nat.zero_add _).symm

/-! ## Matrices laid side by side along the columns -/

/-- Three matrices of R rows side by side: a column of the first block reads the first matrix. -/
theorem concat3_apply_fst {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K1) :
    concatenate ⟨2, ![R, K1 + K2 + K3]⟩ 1 [⟨_, x1⟩, ⟨_, x2⟩, ⟨_, x3⟩] h (ix2 r (Fin.castAdd K3 (Fin.castAdd K2 k)))
      = x1 (ix2 r k) := by
  refine concatenate_apply_piece (t := ⟨2, ![R, K1 + K2 + K3]⟩) (1 : Fin 2) [⟨_, x1⟩, ⟨_, x2⟩, ⟨_, x3⟩] h _
    0 (by show 0 < 3; omega) _ x1 rfl rfl 0 rfl (ix2 r k) ?_ ?_
  · intro b hb
    match b, hb with
    | ⟨0, _⟩, _ => rfl
    | ⟨1, _⟩, hb => exact absurd rfl hb
  · show 0 + k.val = k.val
    omega

/-- Three matrices of R rows side by side: a column of the second block reads the second matrix. -/
theorem concat3_apply_snd {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K2) :
    concatenate ⟨2, ![R, K1 + K2 + K3]⟩ 1 [⟨_, x1⟩, ⟨_, x2⟩, ⟨_, x3⟩] h (ix2 r (Fin.castAdd K3 (Fin.natAdd K1 k)))
      = x2 (ix2 r k) := by
  refine concatenate_apply_piece (t := ⟨2, ![R, K1 + K2 + K3]⟩) (1 : Fin 2) [⟨_, x1⟩, ⟨_, x2⟩, ⟨_, x3⟩] h _
    1 (by show 1 < 3; omega) _ x2 rfl rfl K1 rfl (ix2 r k) ?_ ?_
  · intro b hb
    match b, hb with
    | ⟨0, _⟩, _ => rfl
    | ⟨1, _⟩, hb => exact absurd rfl hb
  · show K1 + k.val = K1 + k.val
    rfl

/-- Three matrices of R rows side by side: a column of the third block reads the third matrix. -/
theorem concat3_apply_trd {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K3) :
    concatenate ⟨2, ![R, K1 + K2 + K3]⟩ 1 [⟨_, x1⟩, ⟨_, x2⟩, ⟨_, x3⟩] h (ix2 r (Fin.natAdd (K1 + K2) k))
      = x3 (ix2 r k) := by
  refine concatenate_apply_piece (t := ⟨2, ![R, K1 + K2 + K3]⟩) (1 : Fin 2) [⟨_, x1⟩, ⟨_, x2⟩, ⟨_, x3⟩] h _
    2 (by show 2 < 3; omega) _ x3 rfl rfl (K1 + K2) rfl (ix2 r k) ?_ ?_
  · intro b hb
    match b, hb with
    | ⟨0, _⟩, _ => rfl
    | ⟨1, _⟩, hb => exact absurd rfl hb
  · show K1 + K2 + k.val = K1 + K2 + k.val
    rfl

/-- A property of every entry of each of two matrices of R rows holds of every entry of the two laid side by side:
    an entry whose column is below the first extent is an entry of the first, any other an entry of the second. -/
theorem concat2_forall {R K1 K2 : Nat} (P : α → Prop)
    (h : Shape.Concatenates [(⟨2, ![R, K1]⟩ : Shape), ⟨2, ![R, K2]⟩] ⟨2, ![R, K1 + K2]⟩ (1 : Fin 2))
    (x1 : (⟨2, ![R, K1]⟩ : Shape).Idx → α) (x2 : (⟨2, ![R, K2]⟩ : Shape).Idx → α)
    (h1 : ∀ i, P (x1 i)) (h2 : ∀ i, P (x2 i)) (j : (⟨2, ![R, K1 + K2]⟩ : Shape).Idx) :
    P (concatenate ⟨2, ![R, K1 + K2]⟩ 1 [⟨_, x1⟩, ⟨_, x2⟩] h j) := by
  obtain ⟨r, q, rfl⟩ : ∃ (r : Fin R) (q : Fin (K1 + K2)), j = ix2 r q := ⟨j 0, j 1, eq_ix2 j⟩
  by_cases hq : q.val < K1
  · have e := concatenate_pair_apply_left (t := ⟨2, ![R, K1 + K2]⟩) (1 : Fin 2) x1 x2 h (ix2 r q) rfl (ix2 r ⟨q.val, hq⟩)
      (by
        intro b
        match b with
        | ⟨0, _⟩ => rfl
        | ⟨1, _⟩ => rfl)
    rw [e]
    exact h1 _
  · have hq' : q.val - K1 < K2 := by have := q.isLt; omega
    have e := concatenate_pair_apply_right (t := ⟨2, ![R, K1 + K2]⟩) (1 : Fin 2) x1 x2 h (ix2 r q) rfl rfl
      (ix2 r ⟨q.val - K1, hq'⟩)
      (by
        intro b hb
        match b, hb with
        | ⟨0, _⟩, _ => rfl
        | ⟨1, _⟩, hb => exact absurd rfl hb)
      (by show q.val - K1 + K1 = q.val; omega)
    rw [e]
    exact h2 _

end Cert.HostLayout
-- ==== Proof.LibTypedRef.lean ====
/-
  Typed references to tensor buffers: storing and reading back.

  An operation of a function the compiler outlined reaches its buffers through typed references: it stores a value by
  transporting it to the buffer's own type and reads one by transporting it back.  Whatever the reference, a value
  stored through it and read back through it is the value: the two transports are along an equation and its inverse.
-/
import Idealize.ShloMosaic.Lib.StableHlo

namespace Idealize.ShloMosaic.StableHlo.TRef

variable {sig : RefSig} {T : BufTy} {Val : EltTy → Type}

/-- A value stored through a typed reference and read back through it is the value. -/
theorem ofBuf_toBuf (x : TRef sig T) (v : T.Contents Val) : x.ofBuf (x.toBuf v) = v := by
  obtain ⟨r, h, h2, h3⟩ := x
  subst h
  rfl

end Idealize.ShloMosaic.StableHlo.TRef
-- ==== Proof.Walk.lean ====
/-
  The buffer contents of the idealized kernel's run, followed from the launch to the result.

  Between its four launches the program does on the host exactly what the reference does there: it builds the source
  and destination node lists with the self loops, the degree normalisation of every edge, and after each launch it
  gathers the launch's rows along the edges, scales them and adds them up per destination node.  Each launch in its
  turn leaves what the reference's dense product leaves (the layer modules).  So every buffer the next stretch or the
  next launch reads holds the reference's value of the same name, and at the end the result buffer holds the
  reference's result.  The shared host chains are never opened: both sides are the same operations of equal operands.
-/
import proofs.«140946_j79834852098287_1_alg».proof.Proof.Gen.KernelIdeal.Frame
import proofs.«140946_j79834852098287_1_alg».proof.Proof.RefRead
import proofs.«140946_j79834852098287_1_alg».proof.Proof.Layer0
import proofs.«140946_j79834852098287_1_alg».proof.Proof.Layer1
import proofs.«140946_j79834852098287_1_alg».proof.Proof.Layer2
import proofs.«140946_j79834852098287_1_alg».proof.Proof.Layer3
import proofs.«140946_j79834852098287_1_alg».proof.Proof.RefLayers
import proofs.«140946_j79834852098287_1_alg».proof.Proof.LibHostLayout
import proofs.«140946_j79834852098287_1_alg».proof.Proof.LibTypedRef

set_option maxRecDepth 16384

noncomputable section

open Idealize.ShloMosaic Idealize.ShloMosaic.TcCoe Idealize.SL.Sem Idealize.ShloMosaic.StableHlo
open Idealize.ShloMosaic.ValueIdx

namespace Cert.KernelIdeal.Walk

open Cert.KernelIdeal Cert.KernelIdeal.Gen

variable (m : (ℓ : Loc nD τ sig) → Buf (Elt Ideal) ℓ) (ρ : Dev nD → PrngReg) (c : Dev nD)

/-! ## Before the first launch

  Three stretches: the node lists and the degrees; the outlined selection that zeroes the inverse square root where
  the degree is not positive; the per-edge normalisation.  Each is read from ANY contents it may start from, so that
  no stretch is opened while another is read. -/

section Stretches

variable (W : Valuation τ sig (Elt Ideal))

/-- The selection, from contents holding the reference's comparison, inverse square root and zero. -/
theorem where_v14 (x1 : (⟨Cert.ReferenceIdeal.S2x800000, .i32⟩ : BufTy).Contents (Elt Ideal))
    (h12 : W (Proc.devRef .tc main_v12) = Cert.ReferenceIdeal.ReadP.val_main_v12 (F := Ideal) x1)
    (h13 : W (Proc.devRef .tc main_v13) = Cert.ReferenceIdeal.ReadP.val_main_v13 (F := Ideal) x1)
    (hc : W (Proc.devRef .tc main_cst_2) = Cert.ReferenceIdeal.ReadP.val_main_cst_2 (F := Ideal)) :
    StableHlo.after hostOps0_1 W (Proc.devRef .tc main_v14) = Cert.ReferenceIdeal.ReadP.val_main_v14 (F := Ideal) x1 := by
  after_results_simp
  simp only [TRef.ofBuf_toBuf]
  show select (W (Proc.devRef .tc main_v12)) (W (Proc.devRef .tc main_v13))
    (broadcastInDim S50000 ![] bcast_S_S50000 (id (W (Proc.devRef .tc main_cst_2)))) = _
  rw [h12, h13, hc]
  rfl

/-- The per-edge normalisation, from contents holding the reference's node lists and selected inverse square roots. -/
theorem norm_v29 (x1 : (⟨Cert.ReferenceIdeal.S2x800000, .i32⟩ : BufTy).Contents (Elt Ideal))
    (h14 : W (Proc.devRef .tc main_v14) = Cert.ReferenceIdeal.ReadP.val_main_v14 (F := Ideal) x1)
    (h3 : W (Proc.devRef .tc main_v3) = Cert.ReferenceIdeal.ReadP.val_main_v3 (F := Ideal) x1)
    (h6 : W (Proc.devRef .tc main_v6) = Cert.ReferenceIdeal.ReadP.val_main_v6 (F := Ideal) x1) :
    StableHlo.after hostOps0_2 W (Proc.devRef .tc main_v29) = Cert.ReferenceIdeal.ReadP.val_main_v29 (F := Ideal) x1 := by
  after_results_simp
  rw [h14, h3, h6]
  rfl

theorem keep01_v3 : StableHlo.after hostOps0_1 W (Proc.devRef .tc main_v3) = W (Proc.devRef .tc main_v3) := by after_results_simp
theorem keep02_v3 : StableHlo.after hostOps0_2 W (Proc.devRef .tc main_v3) = W (Proc.devRef .tc main_v3) := by after_results_simp
theorem keep01_v6 : StableHlo.after hostOps0_1 W (Proc.devRef .tc main_v6) = W (Proc.devRef .tc main_v6) := by after_results_simp
theorem keep02_v6 : StableHlo.after hostOps0_2 W (Proc.devRef .tc main_v6) = W (Proc.devRef .tc main_v6) := by after_results_simp
theorem keep01_arg0 : StableHlo.after hostOps0_1 W (Proc.devRef .tc main_arg0) = W (Proc.devRef .tc main_arg0) := by after_results_simp
theorem keep02_arg0 : StableHlo.after hostOps0_2 W (Proc.devRef .tc main_arg0) = W (Proc.devRef .tc main_arg0) := by after_results_simp
theorem keep01_arg2 : StableHlo.after hostOps0_1 W (Proc.devRef .tc main_arg2) = W (Proc.devRef .tc main_arg2) := by after_results_simp
theorem keep02_arg2 : StableHlo.after hostOps0_2 W (Proc.devRef .tc main_arg2) = W (Proc.devRef .tc main_arg2) := by after_results_simp
theorem keep01_arg3 : StableHlo.after hostOps0_1 W (Proc.devRef .tc main_arg3) = W (Proc.devRef .tc main_arg3) := by after_results_simp
theorem keep02_arg3 : StableHlo.after hostOps0_2 W (Proc.devRef .tc main_arg3) = W (Proc.devRef .tc main_arg3) := by after_results_simp
theorem keep01_arg4 : StableHlo.after hostOps0_1 W (Proc.devRef .tc main_arg4) = W (Proc.devRef .tc main_arg4) := by after_results_simp
theorem keep02_arg4 : StableHlo.after hostOps0_2 W (Proc.devRef .tc main_arg4) = W (Proc.devRef .tc main_arg4) := by after_results_simp
theorem keep01_arg5 : StableHlo.after hostOps0_1 W (Proc.devRef .tc main_arg5) = W (Proc.devRef .tc main_arg5) := by after_results_simp
theorem keep02_arg5 : StableHlo.after hostOps0_2 W (Proc.devRef .tc main_arg5) = W (Proc.devRef .tc main_arg5) := by after_results_simp
theorem keep01_arg6 : StableHlo.after hostOps0_1 W (Proc.devRef .tc main_arg6) = W (Proc.devRef .tc main_arg6) := by after_results_simp
theorem keep02_arg6 : StableHlo.after hostOps0_2 W (Proc.devRef .tc main_arg6) = W (Proc.devRef .tc main_arg6) := by after_results_simp
theorem keep01_arg7 : StableHlo.after hostOps0_1 W (Proc.devRef .tc main_arg7) = W (Proc.devRef .tc main_arg7) := by after_results_simp
theorem keep02_arg7 : StableHlo.after hostOps0_2 W (Proc.devRef .tc main_arg7) = W (Proc.devRef .tc main_arg7) := by after_results_simp
theorem keep01_arg8 : StableHlo.after hostOps0_1 W (Proc.devRef .tc main_arg8) = W (Proc.devRef .tc main_arg8) := by after_results_simp
theorem keep02_arg8 : StableHlo.after hostOps0_2 W (Proc.devRef .tc main_arg8) = W (Proc.devRef .tc main_arg8) := by after_results_simp
theorem keep01_arg9 : StableHlo.after hostOps0_1 W (Proc.devRef .tc main_arg9) = W (Proc.devRef .tc main_arg9) := by after_results_simp
theorem keep02_arg9 : StableHlo.after hostOps0_2 W (Proc.devRef .tc main_arg9) = W (Proc.devRef .tc main_arg9) := by after_results_simp

end Stretches

theorem W1_v3 : W1 m ρ c (Proc.devRef .tc main_v3) = Cert.ReferenceIdeal.ReadP.val_main_v3 (F := Ideal) (m ((c.tc : Thread nD τ).loc main_arg1)) := by
  show StableHlo.after hostOps0 (W0 m ρ c) (Proc.devRef .tc main_v3) = _
  after_results_simp
  rfl
theorem W1_v6 : W1 m ρ c (Proc.devRef .tc main_v6) = Cert.ReferenceIdeal.ReadP.val_main_v6 (F := Ideal) (m ((c.tc : Thread nD τ).loc main_arg1)) := by
  show StableHlo.after hostOps0 (W0 m ρ c) (Proc.devRef .tc main_v6) = _
  after_results_simp
  rfl
theorem W1_v12 : W1 m ρ c (Proc.devRef .tc main_v12) = Cert.ReferenceIdeal.ReadP.val_main_v12 (F := Ideal) (m ((c.tc : Thread nD τ).loc main_arg1)) := by
  show StableHlo.after hostOps0 (W0 m ρ c) (Proc.devRef .tc main_v12) = _
  after_results_simp
  rfl
theorem W1_v13 : W1 m ρ c (Proc.devRef .tc main_v13) = Cert.ReferenceIdeal.ReadP.val_main_v13 (F := Ideal) (m ((c.tc : Thread nD τ).loc main_arg1)) := by
  show StableHlo.after hostOps0 (W0 m ρ c) (Proc.devRef .tc main_v13) = _
  after_results_simp
  rfl
theorem W1_cst_2 : W1 m ρ c (Proc.devRef .tc main_cst_2) = Cert.ReferenceIdeal.ReadP.val_main_cst_2 (F := Ideal) := by
  show StableHlo.after hostOps0 (W0 m ρ c) (Proc.devRef .tc main_cst_2) = _
  after_results_simp
  rfl
theorem W1_arg0 : W1 m ρ c (Proc.devRef .tc main_arg0) = m ((c.tc : Thread nD τ).loc main_arg0) := by
  show StableHlo.after hostOps0 (W0 m ρ c) (Proc.devRef .tc main_arg0) = _
  after_results_simp
  try rfl
theorem W1_arg2 : W1 m ρ c (Proc.devRef .tc main_arg2) = m ((c.tc : Thread nD τ).loc main_arg2) := by
  show StableHlo.after hostOps0 (W0 m ρ c) (Proc.devRef .tc main_arg2) = _
  after_results_simp
  try rfl
theorem W1_arg3 : W1 m ρ c (Proc.devRef .tc main_arg3) = m ((c.tc : Thread nD τ).loc main_arg3) := by
  show StableHlo.after hostOps0 (W0 m ρ c) (Proc.devRef .tc main_arg3) = _
  after_results_simp
  try rfl
theorem W1_arg4 : W1 m ρ c (Proc.devRef .tc main_arg4) = m ((c.tc : Thread nD τ).loc main_arg4) := by
  show StableHlo.after hostOps0 (W0 m ρ c) (Proc.devRef .tc main_arg4) = _
  after_results_simp
  try rfl
theorem W1_arg5 : W1 m ρ c (Proc.devRef .tc main_arg5) = m ((c.tc : Thread nD τ).loc main_arg5) := by
  show StableHlo.after hostOps0 (W0 m ρ c) (Proc.devRef .tc main_arg5) = _
  after_results_simp
  try rfl
theorem W1_arg6 : W1 m ρ c (Proc.devRef .tc main_arg6) = m ((c.tc : Thread nD τ).loc main_arg6) := by
  show StableHlo.after hostOps0 (W0 m ρ c) (Proc.devRef .tc main_arg6) = _
  after_results_simp
  try rfl
theorem W1_arg7 : W1 m ρ c (Proc.devRef .tc main_arg7) = m ((c.tc : Thread nD τ).loc main_arg7) := by
  show StableHlo.after hostOps0 (W0 m ρ c) (Proc.devRef .tc main_arg7) = _
  after_results_simp
  try rfl
theorem W1_arg8 : W1 m ρ c (Proc.devRef .tc main_arg8) = m ((c.tc : Thread nD τ).loc main_arg8) := by
  show StableHlo.after hostOps0 (W0 m ρ c) (Proc.devRef .tc main_arg8) = _
  after_results_simp
  try rfl
theorem W1_arg9 : W1 m ρ c (Proc.devRef .tc main_arg9) = m ((c.tc : Thread nD τ).loc main_arg9) := by
  show StableHlo.after hostOps0 (W0 m ρ c) (Proc.devRef .tc main_arg9) = _
  after_results_simp
  try rfl

theorem W2_v14 : W2 m ρ c (Proc.devRef .tc main_v14) = Cert.ReferenceIdeal.ReadP.val_main_v14 (F := Ideal) (m ((c.tc : Thread nD τ).loc main_arg1)) :=
  where_v14 (W1 m ρ c) _ (W1_v12 m ρ c) (W1_v13 m ρ c) (W1_cst_2 m ρ c)
theorem W2_v3 : W2 m ρ c (Proc.devRef .tc main_v3) = Cert.ReferenceIdeal.ReadP.val_main_v3 (F := Ideal) (m ((c.tc : Thread nD τ).loc main_arg1)) :=
  (keep01_v3 (W1 m ρ c)).trans (W1_v3 m ρ c)
theorem W2_v6 : W2 m ρ c (Proc.devRef .tc main_v6) = Cert.ReferenceIdeal.ReadP.val_main_v6 (F := Ideal) (m ((c.tc : Thread nD τ).loc main_arg1)) :=
  (keep01_v6 (W1 m ρ c)).trans (W1_v6 m ρ c)
theorem W2_arg0 : W2 m ρ c (Proc.devRef .tc main_arg0) = m ((c.tc : Thread nD τ).loc main_arg0) :=
  (keep01_arg0 (W1 m ρ c)).trans (W1_arg0 m ρ c)
theorem W2_arg2 : W2 m ρ c (Proc.devRef .tc main_arg2) = m ((c.tc : Thread nD τ).loc main_arg2) :=
  (keep01_arg2 (W1 m ρ c)).trans (W1_arg2 m ρ c)
theorem W2_arg3 : W2 m ρ c (Proc.devRef .tc main_arg3) = m ((c.tc : Thread nD τ).loc main_arg3) :=
  (keep01_arg3 (W1 m ρ c)).trans (W1_arg3 m ρ c)
theorem W2_arg4 : W2 m ρ c (Proc.devRef .tc main_arg4) = m ((c.tc : Thread nD τ).loc main_arg4) :=
  (keep01_arg4 (W1 m ρ c)).trans (W1_arg4 m ρ c)
theorem W2_arg5 : W2 m ρ c (Proc.devRef .tc main_arg5) = m ((c.tc : Thread nD τ).loc main_arg5) :=
  (keep01_arg5 (W1 m ρ c)).trans (W1_arg5 m ρ c)
theorem W2_arg6 : W2 m ρ c (Proc.devRef .tc main_arg6) = m ((c.tc : Thread nD τ).loc main_arg6) :=
  (keep01_arg6 (W1 m ρ c)).trans (W1_arg6 m ρ c)
theorem W2_arg7 : W2 m ρ c (Proc.devRef .tc main_arg7) = m ((c.tc : Thread nD τ).loc main_arg7) :=
  (keep01_arg7 (W1 m ρ c)).trans (W1_arg7 m ρ c)
theorem W2_arg8 : W2 m ρ c (Proc.devRef .tc main_arg8) = m ((c.tc : Thread nD τ).loc main_arg8) :=
  (keep01_arg8 (W1 m ρ c)).trans (W1_arg8 m ρ c)
theorem W2_arg9 : W2 m ρ c (Proc.devRef .tc main_arg9) = m ((c.tc : Thread nD τ).loc main_arg9) :=
  (keep01_arg9 (W1 m ρ c)).trans (W1_arg9 m ρ c)

theorem W3_v29 : W3 m ρ c (Proc.devRef .tc main_v29) = Cert.ReferenceIdeal.ReadP.val_main_v29 (F := Ideal) (m ((c.tc : Thread nD τ).loc main_arg1)) :=
  norm_v29 (W2 m ρ c) _ (W2_v14 m ρ c) (W2_v3 m ρ c) (W2_v6 m ρ c)
theorem W3_v3 : W3 m ρ c (Proc.devRef .tc main_v3) = Cert.ReferenceIdeal.ReadP.val_main_v3 (F := Ideal) (m ((c.tc : Thread nD τ).loc main_arg1)) :=
  (keep02_v3 (W2 m ρ c)).trans (W2_v3 m ρ c)
theorem W3_v6 : W3 m ρ c (Proc.devRef .tc main_v6) = Cert.ReferenceIdeal.ReadP.val_main_v6 (F := Ideal) (m ((c.tc : Thread nD τ).loc main_arg1)) :=
  (keep02_v6 (W2 m ρ c)).trans (W2_v6 m ρ c)
theorem W3_arg0 : W3 m ρ c (Proc.devRef .tc main_arg0) = m ((c.tc : Thread nD τ).loc main_arg0) :=
  (keep02_arg0 (W2 m ρ c)).trans (W2_arg0 m ρ c)
theorem W3_arg2 : W3 m ρ c (Proc.devRef .tc main_arg2) = m ((c.tc : Thread nD τ).loc main_arg2) :=
  (keep02_arg2 (W2 m ρ c)).trans (W2_arg2 m ρ c)
theorem W3_arg3 : W3 m ρ c (Proc.devRef .tc main_arg3) = m ((c.tc : Thread nD τ).loc main_arg3) :=
  (keep02_arg3 (W2 m ρ c)).trans (W2_arg3 m ρ c)
theorem W3_arg4 : W3 m ρ c (Proc.devRef .tc main_arg4) = m ((c.tc : Thread nD τ).loc main_arg4) :=
  (keep02_arg4 (W2 m ρ c)).trans (W2_arg4 m ρ c)
theorem W3_arg5 : W3 m ρ c (Proc.devRef .tc main_arg5) = m ((c.tc : Thread nD τ).loc main_arg5) :=
  (keep02_arg5 (W2 m ρ c)).trans (W2_arg5 m ρ c)
theorem W3_arg6 : W3 m ρ c (Proc.devRef .tc main_arg6) = m ((c.tc : Thread nD τ).loc main_arg6) :=
  (keep02_arg6 (W2 m ρ c)).trans (W2_arg6 m ρ c)
theorem W3_arg7 : W3 m ρ c (Proc.devRef .tc main_arg7) = m ((c.tc : Thread nD τ).loc main_arg7) :=
  (keep02_arg7 (W2 m ρ c)).trans (W2_arg7 m ρ c)
theorem W3_arg8 : W3 m ρ c (Proc.devRef .tc main_arg8) = m ((c.tc : Thread nD τ).loc main_arg8) :=
  (keep02_arg8 (W2 m ρ c)).trans (W2_arg8 m ρ c)
theorem W3_arg9 : W3 m ρ c (Proc.devRef .tc main_arg9) = m ((c.tc : Thread nD τ).loc main_arg9) :=
  (keep02_arg9 (W2 m ρ c)).trans (W2_arg9 m ρ c)

/-! ## The first launch -/

theorem W4_v30 : W4 m ρ c (Proc.devRef .tc main_v30) = Cert.ReferenceIdeal.ReadP.val_main_v30 (F := Ideal) (m ((c.tc : Thread nD τ).loc main_arg0)) (m ((c.tc : Thread nD τ).loc main_arg2)) := by
  refine (W4_arr m ρ c 2).trans ?_
  refine (Layer0.final (V3 m ρ) c).trans ?_
  show Layer0.out (W3 m ρ c (Proc.devRef .tc main_arg0)) (W3 m ρ c (Proc.devRef .tc main_arg2)) = _
  rw [W3_arg0, W3_arg2]
  exact (Cert.ReferenceIdeal.Layers.v30_eq _ _).symm
theorem W4_v3 : W4 m ρ c (Proc.devRef .tc main_v3) = Cert.ReferenceIdeal.ReadP.val_main_v3 (F := Ideal) (m ((c.tc : Thread nD τ).loc main_arg1)) :=
  (W4_of_ne m ρ c main_v3 (by decide)).trans (W3_v3 m ρ c)
theorem W4_v6 : W4 m ρ c (Proc.devRef .tc main_v6) = Cert.ReferenceIdeal.ReadP.val_main_v6 (F := Ideal) (m ((c.tc : Thread nD τ).loc main_arg1)) :=
  (W4_of_ne m ρ c main_v6 (by decide)).trans (W3_v6 m ρ c)
theorem W4_v29 : W4 m ρ c (Proc.devRef .tc main_v29) = Cert.ReferenceIdeal.ReadP.val_main_v29 (F := Ideal) (m ((c.tc : Thread nD τ).loc main_arg1)) :=
  (W4_of_ne m ρ c main_v29 (by decide)).trans (W3_v29 m ρ c)
theorem W4_arg3 : W4 m ρ c (Proc.devRef .tc main_arg3) = m ((c.tc : Thread nD τ).loc main_arg3) :=
  (W4_of_ne m ρ c main_arg3 (by decide)).trans (W3_arg3 m ρ c)
theorem W4_arg4 : W4 m ρ c (Proc.devRef .tc main_arg4) = m ((c.tc : Thread nD τ).loc main_arg4) :=
  (W4_of_ne m ρ c main_arg4 (by decide)).trans (W3_arg4 m ρ c)
theorem W4_arg5 : W4 m ρ c (Proc.devRef .tc main_arg5) = m ((c.tc : Thread nD τ).loc main_arg5) :=
  (W4_of_ne m ρ c main_arg5 (by decide)).trans (W3_arg5 m ρ c)
theorem W4_arg6 : W4 m ρ c (Proc.devRef .tc main_arg6) = m ((c.tc : Thread nD τ).loc main_arg6) :=
  (W4_of_ne m ρ c main_arg6 (by decide)).trans (W3_arg6 m ρ c)
theorem W4_arg7 : W4 m ρ c (Proc.devRef .tc main_arg7) = m ((c.tc : Thread nD τ).loc main_arg7) :=
  (W4_of_ne m ρ c main_arg7 (by decide)).trans (W3_arg7 m ρ c)
theorem W4_arg8 : W4 m ρ c (Proc.devRef .tc main_arg8) = m ((c.tc : Thread nD τ).loc main_arg8) :=
  (W4_of_ne m ρ c main_arg8 (by decide)).trans (W3_arg8 m ρ c)
theorem W4_arg9 : W4 m ρ c (Proc.devRef .tc main_arg9) = m ((c.tc : Thread nD τ).loc main_arg9) :=
  (W4_of_ne m ρ c main_arg9 (by decide)).trans (W3_arg9 m ρ c)

/-! ## The first aggregation -/

theorem W5_v43 : W5 m ρ c (Proc.devRef .tc main_v43) = Cert.ReferenceIdeal.ReadP.val_main_v43 (F := Ideal) (m ((c.tc : Thread nD τ).loc main_arg0)) (m ((c.tc : Thread nD τ).loc main_arg1)) (m ((c.tc : Thread nD τ).loc main_arg2)) := by
  show StableHlo.after hostOps1 (W4 m ρ c) (Proc.devRef .tc main_v43) = _
  after_results_simp
  rw [W4_v30, W4_v3, W4_v6, W4_v29]
  rfl

theorem W5_v44 (k : Fin 64) : (W5 m ρ c (Proc.devRef .tc main_v44) : S1x64.Idx → EReal) (ix2 (0 : Fin 1) k) = (m ((c.tc : Thread nD τ).loc main_arg3) : S64.Idx → EReal) (ix1 k) := by
  show (StableHlo.after hostOps1 (W4 m ρ c) (Proc.devRef .tc main_v44) : S1x64.Idx → EReal) (ix2 (0 : Fin 1) k) = _
  after_results_simp
  rw [W4_arg3]
  exact Cert.HostLayout.reshape_rowvec_apply _ _ 0 k
theorem W5_v3 : W5 m ρ c (Proc.devRef .tc main_v3) = Cert.ReferenceIdeal.ReadP.val_main_v3 (F := Ideal) (m ((c.tc : Thread nD τ).loc main_arg1)) := by
  show StableHlo.after hostOps1 (W4 m ρ c) (Proc.devRef .tc main_v3) = _
  after_results_simp
  exact W4_v3 m ρ c
theorem W5_v6 : W5 m ρ c (Proc.devRef .tc main_v6) = Cert.ReferenceIdeal.ReadP.val_main_v6 (F := Ideal) (m ((c.tc : Thread nD τ).loc main_arg1)) := by
  show StableHlo.after hostOps1 (W4 m ρ c) (Proc.devRef .tc main_v6) = _
  after_results_simp
  exact W4_v6 m ρ c
theorem W5_v29 : W5 m ρ c (Proc.devRef .tc main_v29) = Cert.ReferenceIdeal.ReadP.val_main_v29 (F := Ideal) (m ((c.tc : Thread nD τ).loc main_arg1)) := by
  show StableHlo.after hostOps1 (W4 m ρ c) (Proc.devRef .tc main_v29) = _
  after_results_simp
  exact W4_v29 m ρ c
theorem W5_arg4 : W5 m ρ c (Proc.devRef .tc main_arg4) = m ((c.tc : Thread nD τ).loc main_arg4) := by
  show StableHlo.after hostOps1 (W4 m ρ c) (Proc.devRef .tc main_arg4) = _
  after_results_simp
  exact W4_arg4 m ρ c
theorem W5_arg5 : W5 m ρ c (Proc.devRef .tc main_arg5) = m ((c.tc : Thread nD τ).loc main_arg5) := by
  show StableHlo.after hostOps1 (W4 m ρ c) (Proc.devRef .tc main_arg5) = _
  after_results_simp
  exact W4_arg5 m ρ c
theorem W5_arg6 : W5 m ρ c (Proc.devRef .tc main_arg6) = m ((c.tc : Thread nD τ).loc main_arg6) := by
  show StableHlo.after hostOps1 (W4 m ρ c) (Proc.devRef .tc main_arg6) = _
  after_results_simp
  exact W4_arg6 m ρ c
theorem W5_arg7 : W5 m ρ c (Proc.devRef .tc main_arg7) = m ((c.tc : Thread nD τ).loc main_arg7) := by
  show StableHlo.after hostOps1 (W4 m ρ c) (Proc.devRef .tc main_arg7) = _
  after_results_simp
  exact W4_arg7 m ρ c
theorem W5_arg8 : W5 m ρ c (Proc.devRef .tc main_arg8) = m ((c.tc : Thread nD τ).loc main_arg8) := by
  show StableHlo.after hostOps1 (W4 m ρ c) (Proc.devRef .tc main_arg8) = _
  after_results_simp
  exact W4_arg8 m ρ c
theorem W5_arg9 : W5 m ρ c (Proc.devRef .tc main_arg9) = m ((c.tc : Thread nD τ).loc main_arg9) := by
  show StableHlo.after hostOps1 (W4 m ρ c) (Proc.devRef .tc main_arg9) = _
  after_results_simp
  exact W4_arg9 m ρ c

/-! ## The second launch -/

theorem W6_v45 : W6 m ρ c (Proc.devRef .tc main_v45) = Cert.ReferenceIdeal.ReadP.val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W6_arr m ρ c 3).trans ?_
  refine (Layer1.final (V5 m ρ) c).trans ?_
  show Layer1.out (W5 m ρ c (Proc.devRef .tc main_v43)) (W5 m ρ c (Proc.devRef .tc main_v44)) (W5 m ρ c (Proc.devRef .tc main_arg4)) = _
  rw [W5_v43, W5_arg4]
  exact (Cert.ReferenceIdeal.Layers.v48_eq _ _ _ _ _ _ (W5_v44 m ρ c)).symm
theorem W6_v3 : W6 m ρ c (Proc.devRef .tc main_v3) = Cert.ReferenceIdeal.ReadP.val_main_v3 (F := Ideal) (m ((c.tc : Thread nD τ).loc main_arg1)) :=
  (W6_of_ne m ρ c main_v3 (by decide)).trans (W5_v3 m ρ c)
theorem W6_v6 : W6 m ρ c (Proc.devRef .tc main_v6) = Cert.ReferenceIdeal.ReadP.val_main_v6 (F := Ideal) (m ((c.tc : Thread nD τ).loc main_arg1)) :=
  (W6_of_ne m ρ c main_v6 (by decide)).trans (W5_v6 m ρ c)
theorem W6_v29 : W6 m ρ c (Proc.devRef .tc main_v29) = Cert.ReferenceIdeal.ReadP.val_main_v29 (F := Ideal) (m ((c.tc : Thread nD τ).loc main_arg1)) :=
  (W6_of_ne m ρ c main_v29 (by decide)).trans (W5_v29 m ρ c)
theorem W6_arg5 : W6 m ρ c (Proc.devRef .tc main_arg5) = m ((c.tc : Thread nD τ).loc main_arg5) :=
  (W6_of_ne m ρ c main_arg5 (by decide)).trans (W5_arg5 m ρ c)
theorem W6_arg6 : W6 m ρ c (Proc.devRef .tc main_arg6) = m ((c.tc : Thread nD τ).loc main_arg6) :=
  (W6_of_ne m ρ c main_arg6 (by decide)).trans (W5_arg6 m ρ c)
theorem W6_arg7 : W6 m ρ c (Proc.devRef .tc main_arg7) = m ((c.tc : Thread nD τ).loc main_arg7) :=
  (W6_of_ne m ρ c main_arg7 (by decide)).trans (W5_arg7 m ρ c)
theorem W6_arg8 : W6 m ρ c (Proc.devRef .tc main_arg8) = m ((c.tc : Thread nD τ).loc main_arg8) :=
  (W6_of_ne m ρ c main_arg8 (by decide)).trans (W5_arg8 m ρ c)
theorem W6_arg9 : W6 m ρ c (Proc.devRef .tc main_arg9) = m ((c.tc : Thread nD τ).loc main_arg9) :=
  (W6_of_ne m ρ c main_arg9 (by decide)).trans (W5_arg9 m ρ c)

/-! ## The second aggregation -/

theorem W7_v58 : W7 m ρ c (Proc.devRef .tc main_v58) = Cert.ReferenceIdeal.ReadP.val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps2 (W6 m ρ c) (Proc.devRef .tc main_v58) = _
  after_results_simp
  rw [W6_v45, W6_v3, W6_v6, W6_v29]
  rfl

theorem W7_v59 (k : Fin 32) : (W7 m ρ c (Proc.devRef .tc main_v59) : S1x32.Idx → EReal) (ix2 (0 : Fin 1) k) = (m ((c.tc : Thread nD τ).loc main_arg5) : S32.Idx → EReal) (ix1 k) := by
  show (StableHlo.after hostOps2 (W6 m ρ c) (Proc.devRef .tc main_v59) : S1x32.Idx → EReal) (ix2 (0 : Fin 1) k) = _
  after_results_simp
  rw [W6_arg5]
  exact Cert.HostLayout.reshape_rowvec_apply _ _ 0 k
theorem W7_v3 : W7 m ρ c (Proc.devRef .tc main_v3) = Cert.ReferenceIdeal.ReadP.val_main_v3 (F := Ideal) (m ((c.tc : Thread nD τ).loc main_arg1)) := by
  show StableHlo.after hostOps2 (W6 m ρ c) (Proc.devRef .tc main_v3) = _
  after_results_simp
  exact W6_v3 m ρ c
theorem W7_v6 : W7 m ρ c (Proc.devRef .tc main_v6) = Cert.ReferenceIdeal.ReadP.val_main_v6 (F := Ideal) (m ((c.tc : Thread nD τ).loc main_arg1)) := by
  show StableHlo.after hostOps2 (W6 m ρ c) (Proc.devRef .tc main_v6) = _
  after_results_simp
  exact W6_v6 m ρ c
theorem W7_v29 : W7 m ρ c (Proc.devRef .tc main_v29) = Cert.ReferenceIdeal.ReadP.val_main_v29 (F := Ideal) (m ((c.tc : Thread nD τ).loc main_arg1)) := by
  show StableHlo.after hostOps2 (W6 m ρ c) (Proc.devRef .tc main_v29) = _
  after_results_simp
  exact W6_v29 m ρ c
theorem W7_arg6 : W7 m ρ c (Proc.devRef .tc main_arg6) = m ((c.tc : Thread nD τ).loc main_arg6) := by
  show StableHlo.after hostOps2 (W6 m ρ c) (Proc.devRef .tc main_arg6) = _
  after_results_simp
  exact W6_arg6 m ρ c
theorem W7_arg7 : W7 m ρ c (Proc.devRef .tc main_arg7) = m ((c.tc : Thread nD τ).loc main_arg7) := by
  show StableHlo.after hostOps2 (W6 m ρ c) (Proc.devRef .tc main_arg7) = _
  after_results_simp
  exact W6_arg7 m ρ c
theorem W7_arg8 : W7 m ρ c (Proc.devRef .tc main_arg8) = m ((c.tc : Thread nD τ).loc main_arg8) := by
  show StableHlo.after hostOps2 (W6 m ρ c) (Proc.devRef .tc main_arg8) = _
  after_results_simp
  exact W6_arg8 m ρ c
theorem W7_arg9 : W7 m ρ c (Proc.devRef .tc main_arg9) = m ((c.tc : Thread nD τ).loc main_arg9) := by
  show StableHlo.after hostOps2 (W6 m ρ c) (Proc.devRef .tc main_arg9) = _
  after_results_simp
  exact W6_arg9 m ρ c

/-! ## The third launch -/

theorem W8_v60 : W8 m ρ c (Proc.devRef .tc main_v60) = Cert.ReferenceIdeal.ReadP.val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W8_arr m ρ c 3).trans ?_
  refine (Layer2.final (V7 m ρ) c).trans ?_
  show Layer2.out (W7 m ρ c (Proc.devRef .tc main_v58)) (W7 m ρ c (Proc.devRef .tc main_v59)) (W7 m ρ c (Proc.devRef .tc main_arg6)) = _
  rw [W7_v58, W7_arg6]
  exact (Cert.ReferenceIdeal.Layers.v66_eq _ _ _ _ _ _ _ _ (W7_v59 m ρ c)).symm
theorem W8_v3 : W8 m ρ c (Proc.devRef .tc main_v3) = Cert.ReferenceIdeal.ReadP.val_main_v3 (F := Ideal) (m ((c.tc : Thread nD τ).loc main_arg1)) :=
  (W8_of_ne m ρ c main_v3 (by decide)).trans (W7_v3 m ρ c)
theorem W8_v6 : W8 m ρ c (Proc.devRef .tc main_v6) = Cert.ReferenceIdeal.ReadP.val_main_v6 (F := Ideal) (m ((c.tc : Thread nD τ).loc main_arg1)) :=
  (W8_of_ne m ρ c main_v6 (by decide)).trans (W7_v6 m ρ c)
theorem W8_v29 : W8 m ρ c (Proc.devRef .tc main_v29) = Cert.ReferenceIdeal.ReadP.val_main_v29 (F := Ideal) (m ((c.tc : Thread nD τ).loc main_arg1)) :=
  (W8_of_ne m ρ c main_v29 (by decide)).trans (W7_v29 m ρ c)
theorem W8_arg7 : W8 m ρ c (Proc.devRef .tc main_arg7) = m ((c.tc : Thread nD τ).loc main_arg7) :=
  (W8_of_ne m ρ c main_arg7 (by decide)).trans (W7_arg7 m ρ c)
theorem W8_arg8 : W8 m ρ c (Proc.devRef .tc main_arg8) = m ((c.tc : Thread nD τ).loc main_arg8) :=
  (W8_of_ne m ρ c main_arg8 (by decide)).trans (W7_arg8 m ρ c)
theorem W8_arg9 : W8 m ρ c (Proc.devRef .tc main_arg9) = m ((c.tc : Thread nD τ).loc main_arg9) :=
  (W8_of_ne m ρ c main_arg9 (by decide)).trans (W7_arg9 m ρ c)

/-! ## The third aggregation -/

theorem W9_v72 : W9 m ρ c (Proc.devRef .tc main_v72) = Cert.ReferenceIdeal.ReadP.val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show StableHlo.after hostOps3 (W8 m ρ c) (Proc.devRef .tc main_v72) = _
  after_results_simp
  rw [W8_v60, W8_v3, W8_v6, W8_v29]
  rfl

theorem W9_v73 (k : Fin 1) : (W9 m ρ c (Proc.devRef .tc main_v73) : S1x1.Idx → EReal) (ix2 (0 : Fin 1) k) = (m ((c.tc : Thread nD τ).loc main_arg7) : S1.Idx → EReal) (ix1 k) := by
  show (StableHlo.after hostOps3 (W8 m ρ c) (Proc.devRef .tc main_v73) : S1x1.Idx → EReal) (ix2 (0 : Fin 1) k) = _
  after_results_simp
  rw [W8_arg7]
  exact Cert.HostLayout.reshape_rowvec_apply _ _ 0 k

theorem W9_v74 (q : Fin 8) : (W9 m ρ c (Proc.devRef .tc main_v74) : S1x8.Idx → EReal) (ix2 (0 : Fin 1) q) = (m ((c.tc : Thread nD τ).loc main_arg9) : S8.Idx → EReal) (ix1 q) := by
  show (StableHlo.after hostOps3 (W8 m ρ c) (Proc.devRef .tc main_v74) : S1x8.Idx → EReal) (ix2 (0 : Fin 1) q) = _
  after_results_simp
  rw [W8_arg9]
  exact Cert.HostLayout.reshape_rowvec_apply _ _ 0 q
theorem W9_arg8 : W9 m ρ c (Proc.devRef .tc main_arg8) = m ((c.tc : Thread nD τ).loc main_arg8) := by
  show StableHlo.after hostOps3 (W8 m ρ c) (Proc.devRef .tc main_arg8) = _
  after_results_simp
  exact W8_arg8 m ρ c

/-! ## The fourth launch -/

/-- The result buffer at the return holds the reference's result, as a function of the argument arrays. -/
theorem W10_v75 : W10 m ρ c (Proc.devRef .tc main_v75) = Cert.ReferenceIdeal.ReadP.val_main_v87 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W10_arr m ρ c 4).trans ?_
  refine (Layer3.final (V9 m ρ) c).trans ?_
  show Layer3.out (W9 m ρ c (Proc.devRef .tc main_v72)) (W9 m ρ c (Proc.devRef .tc main_v73)) (W9 m ρ c (Proc.devRef .tc main_arg8)) (W9 m ρ c (Proc.devRef .tc main_v74)) = _
  rw [W9_v72, W9_arg8]
  exact (Cert.ReferenceIdeal.Layers.v87_eq _ _ _ _ _ _ _ _ _ _ _ _ (W9_v73 m ρ c) (W9_v74 m ρ c)).symm

end Cert.KernelIdeal.Walk

end
-- ==== Proof.lean ====
/-
  The certificate of a three-layer graph convolution network on 50000 nodes and 800000 edges (plus one self loop per
  node): the kernel computes each layer's dense part (bias, clamp at zero, matrix product) in a launch that walks the
  node rows in five blocks, and does the normalised gather / scatter-add aggregation between the launches on the host;
  the reference does the aggregations with the very same host operations and the dense parts with whole-array host
  operations.

  Why the two agree over the extended reals, entry by entry.  A launch's result row depends on the same row of its
  operand only, so the five blocks it writes back are the blocks of one whole-array formula (a sum over the inner
  extent of shifted, clamped entries times weights) — and the reference's broadcast-add, maximum and general product,
  read at one entry, are that same formula, changes of float format being the identity and both products exact sums.
  No rearrangement of a sum and no finiteness of the inputs is used: the precondition is never opened.  Between the
  launches both programs apply identical operations to values already shown equal, so those chains are carried whole.

  The three frames are the generated ones (the reference's is its run with the result dropped); nothing was rewritten
  by the ideal pass, so the preservation claim is trivial.
-/
import proofs.«140946_j79834852098287_1_alg».proof.Defs
import proofs.«140946_j79834852098287_1_alg».proof.Proof.Gen.Kernel
import proofs.«140946_j79834852098287_1_alg».proof.Proof.Gen.Kernel.Skeleton
import proofs.«140946_j79834852098287_1_alg».proof.Proof.Gen.Kernel.Launch
import proofs.«140946_j79834852098287_1_alg».proof.Proof.Gen.Kernel.Points
import proofs.«140946_j79834852098287_1_alg».proof.Proof.Gen.Kernel.Frame
import proofs.«140946_j79834852098287_1_alg».proof.Proof.Gen.KernelIdeal
import proofs.«140946_j79834852098287_1_alg».proof.Proof.Gen.KernelIdeal.Skeleton
import proofs.«140946_j79834852098287_1_alg».proof.Proof.Gen.KernelIdeal.Launch
import proofs.«140946_j79834852098287_1_alg».proof.Proof.Gen.KernelIdeal.Points
import proofs.«140946_j79834852098287_1_alg».proof.Proof.Gen.KernelIdeal.Frame
import proofs.«140946_j79834852098287_1_alg».proof.Proof.Gen.ReferenceIdeal
import proofs.«140946_j79834852098287_1_alg».proof.Proof.Gen.Pre_finite_inputs
import proofs.«140946_j79834852098287_1_alg».proof.Proof.KernelRun
import proofs.«140946_j79834852098287_1_alg».proof.Proof.Walk
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both runs end with the result at the reference's function of the argument arrays, which agree. -/
theorem algebraic : Cert.algebraic_KernelIdeal_ReferenceIdeal := by
  intro m ρ m' ρ' _ hagree
  refine ⟨fun c => Cert.KernelIdeal.Gen.W10 m ρ c (Proc.devRef .tc Cert.KernelIdeal.main_v75),
    Cert.KernelIdeal.Result.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9⟩ := hagree c
  show Cert.ReferenceIdeal.ValueP.res_main_v87 (F := Ideal) m' c
    = Cert.KernelIdeal.Gen.W10 m ρ c (Proc.devRef .tc Cert.KernelIdeal.main_v75)
  rw [Cert.ReferenceIdeal.ReadP.val_main_v87_eq, Cert.KernelIdeal.Walk.W10_v75, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
